-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S500000x8 : Shape := ⟨2, ![500000, 8]⟩
abbrev S2x500000 : Shape := ⟨2, ![2, 500000]⟩
abbrev S50000 : Shape := ⟨1, ![50000]⟩
abbrev S16x128 : Shape := ⟨2, ![16, 128]⟩
abbrev S128 : Shape := ⟨1, ![128]⟩
abbrev S8x128 : Shape := ⟨2, ![8, 128]⟩
abbrev S384x128 : Shape := ⟨2, ![384, 128]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S500000x8 : S_.BroadcastsInDim S500000x8 (![] : Fin 0 → Fin S500000x8.rank)
  reducesTo_S500000x8_S_d0_1 : S500000x8.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S8x128 : S_.BroadcastsInDim S8x128 (![] : Fin 0 → Fin S8x128.rank)
  reducesTo_S8x128_S_d0_1 : S8x128.ReducesTo [0, 1] S_
  bcast_S_S384x128 : S_.BroadcastsInDim S384x128 (![] : Fin 0 → Fin S384x128.rank)
  reducesTo_S384x128_S_d0_1 : S384x128.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x1 .f32) (main_arg15 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S128 .f32) (main_arg10 : FVec F S256x128 .f32) (main_arg11 : FVec F S128 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S8x128 .f32) (main_arg7 : FVec F S128 .f32) (main_arg8 : FVec F S384x128 .f32) (main_arg9 : FVec F S128 .f32) (main_arg10 : FVec F S256x128 .f32) (main_arg11 : FVec F S128 .f32) (main_arg12 : FVec F S128x128 .f32) (main_arg13 : FVec F S128 .f32) (main_arg14 : FVec F S128x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S8x128 .f32 := Host.absf main_arg6
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg8
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x16 .f32) (main_arg1 : FVec F S500000x8 .f32) (main_arg2 : IVec S2x500000 32) (main_arg3 : IVec S50000 32) (main_arg4 : FVec F S16x128 .f32) (main_arg5 : FVec F S128 .f32) (main_arg6 : FVec F S8x128 .f32) (main_arg7 : FVec F S128 .f32) (main_arg8 : FVec F S384x128 .f32) (main_arg9 : FVec F S128 .f32) (main_arg10 : FVec F S256x128 .f32) (main_arg11 : FVec F S128 .f32) (main_arg12 : FVec F S128x128 .f32) (main_arg13 : FVec F S128 .f32) (main_arg14 : FVec F S128x1 .f32) (main_arg15 : FVec F S1 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S500000x8 .f32 := Host.absf main_arg1
  let main_cst_0 : FVec F S_ .f32 := constant S_ .f32 0x7F800000#32
  let main_v5 : FVec F S500000x8 .f32 := broadcastInDim S500000x8 ![] bcast_S_S500000x8 main_cst_0
  let main_v6 : IVec S500000x8 1 := cmpf .olt main_v4 main_v5
  let main_c_1 : IVec S_ 1 := constantI S_ 1 1#1
  let main_v7 : IVec S_ 1 := (fun x v => Host.reduce IntOp.andi x v reducesTo_S500000x8_S_d0_1 h_S_) main_v6 main_c_1
  let main_v8 : IVec S_ 1 := andi main_v3 main_v7
  let main_v9 : FVec F S16x128 .f32 := Host.absf main_arg4
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x16 : Shape := ⟨2, ![50000, 16]⟩
abbrev S500000x8 : Shape := ⟨2, ![500000, 8]⟩
abbrev S2x500000 : Shape := ⟨2, ![2, 500000]⟩
abbrev S50000 : Shape := ⟨1, ![50000]⟩
abbrev S16x128 : Shape := ⟨2, ![16, 128]⟩
abbrev S128 : Shape := ⟨1, ![128]⟩
abbrev S8x128 : Shape := ⟨2, ![8, 128]⟩
abbrev S384x128 : Shape := ⟨2, ![384, 128]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S50000x128 : Shape := ⟨2, ![50000, 128]⟩
abbrev S5000x16 : Shape := ⟨2, ![5000, 16]⟩
abbrev S5000x128 : Shape := ⟨2, ![5000, 128]⟩
abbrev S1x128 : Shape := ⟨2, ![1, 128]⟩
abbrev S500000x128 : Shape := ⟨2, ![500000, 128]⟩
abbrev S10000x8 : Shape := ⟨2, ![10000, 8]⟩
abbrev S10000x128 : Shape := ⟨2, ![10000, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S50000x1 : Shape := ⟨2, ![50000, 1]⟩
abbrev S64x128 : Shape := ⟨2, ![64, 128]⟩
abbrev S64 : Shape := ⟨1, ![64]⟩
abbrev S64x1 : Shape := ⟨2, ![64, 1]⟩
abbrev S1x1 : Shape := ⟨2, ![1, 1]⟩

abbrev nBuf : Space → Nat
  | .hbm => 90
  | .vmem => 33
  | .smem => 0
  | _ => 0

abbrev bufTy : (tb : Table) → Fin (tcTables nBuf tb) → BufTy
  | .hbm, ⟨0, _⟩ => ⟨S50000x16, .f32⟩
  | .hbm, ⟨1, _⟩ => ⟨S500000x8, .f32⟩
  | .hbm, ⟨2, _⟩ => ⟨S2x500000, .i32⟩
  | .hbm, ⟨3, _⟩ => ⟨S50000, .i32⟩
  | .hbm, ⟨4, _⟩ => ⟨S16x128, .f32⟩
  | .hbm, ⟨5, _⟩ => ⟨S128, .f32⟩
  | .hbm, ⟨6, _⟩ => ⟨S8x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S50000x128, .f32⟩
  | .hbm, ⟨17, _⟩ => ⟨S500000x128, .f32⟩
  | .hbm, ⟨18, _⟩ => ⟨S1x500000, .i32⟩
  | .hbm, ⟨19, _⟩ => ⟨S500000, .i32⟩
  | .hbm, ⟨20, _⟩ => ⟨S1x500000, .i32⟩
  | .hbm, ⟨21, _⟩ => ⟨S500000, .i32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x128, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S500000x128, .f32⟩
  | .hbm, ⟨44, _⟩ => ⟨S_, .f32⟩
  | .hbm, ⟨45, _⟩ => ⟨S50000x128, .f32⟩
  | .hbm, ⟨46, _⟩ => ⟨S500000x1, .i32⟩
  | .hbm, ⟨47, _⟩ => ⟨S50000x128, .f32⟩
  | .hbm, ⟨48, _⟩ => ⟨S_, .f32⟩
  | .hbm, ⟨49, _⟩ => ⟨S500000, .f32⟩
  | .hbm, ⟨50, _⟩ => ⟨S_, .f32⟩
  | .hbm, ⟨51, _⟩ => ⟨S50000, .f32⟩
  | .hbm, ⟨52, _⟩ => ⟨S500000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S128x128, .f32⟩
  | .hbm, ⟨61, _⟩ => ⟨S128x128, .f32⟩
  | .hbm, ⟨62, _⟩ => ⟨S50000x128, .f32⟩
  | .hbm, ⟨63, _⟩ => ⟨S_, .f32⟩
  | .hbm, ⟨64, _⟩ => ⟨S64x128, .f32⟩
  | .hbm, ⟨65, _⟩ => ⟨S50000x1, .i32⟩
  | .hbm, ⟨66, _⟩ => ⟨S64x128, .f32⟩
  | .hbm, ⟨67, _⟩ => ⟨S_, .f32⟩
  | .hbm, ⟨68, _⟩ => ⟨S50000, .f32⟩
  | .hbm, ⟨69, _⟩ => ⟨S_, .f32⟩
  | .hbm, ⟨70, _⟩ => ⟨S64, .f32⟩
  | .hbm, ⟨71, _⟩ => ⟨S50000x1, .i32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S64x1, .f32⟩
  | .hbm, ⟨77, _⟩ => ⟨S64x128, .f32⟩
  | .hbm, ⟨78, _⟩ => ⟨S64x128, .f32⟩
  | .hbm, ⟨79, _⟩ => ⟨S64x128, .f32⟩
  | .hbm, ⟨80, _⟩ => ⟨S1x128, .f32⟩
  | .hbm, ⟨81, _⟩ => ⟨S64x128, .f32⟩
  | .hbm, ⟨82, _⟩ => ⟨S64x128, .f32⟩
  | .hbm, ⟨83, _⟩ => ⟨S_, .f32⟩
  | .hbm, ⟨84, _⟩ => ⟨S64x128, .f32⟩
  | .hbm, ⟨85, _⟩ => ⟨S64x128, .f32⟩
  | .hbm, ⟨86, _⟩ => ⟨S64x1, .f32⟩
  | .hbm, ⟨87, _⟩ => ⟨S1x1, .f32⟩
  | .hbm, ⟨88, _⟩ => ⟨S64x1, .f32⟩
  | .hbm, ⟨89, _⟩ => ⟨S64x1, .f32⟩
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S10000x8, .f32⟩
  | .local _ .vmem, ⟨7, _⟩ => ⟨S10000x8, .f32⟩
  | .local _ .vmem, ⟨8, _⟩ => ⟨S8x128, .f32⟩
  | .local _ .vmem, ⟨9, _⟩ => ⟨S128, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S128, .f32⟩
  | .local _ .vmem, ⟨31, _⟩ => ⟨S5000x128, .f32⟩
  | .local _ .vmem, ⟨32, _⟩ => ⟨S5000x128, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call0_cst : Ref sig .tc := ⟨.hbm, 83, rfl⟩
abbrev main_call0_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S10000x8_S10000x8_0_0 : ∀ a, (![0, 0] : Fin 2 → Nat) a + S10000x8.size a ≤ S10000x8.size a
  h_S10000x8 : 0 < S10000x8.numel
  inb_S8x128_S8x128_0_0 : ∀ a, (![0, 0] : Fin 2 → Nat) a + S8x128.size a ≤ S8x128.size a
  h_S8x128 : 0 < S8x128.numel
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S5000x16_S16x128_S5000x128_1_0_0_1_n_n_wf : DotDims.WF S5000x16 S16x128 S5000x128 [1] [0] [0] [1] [] []
  dot_S10000x8_S8x128_S10000x128_1_0_0_1_n_n_wf : DotDims.WF S10000x8 S8x128 S10000x128 [1] [0] [0] [1] [] []
  gather_S50000x128_S500000x1_S500000x128_1_0_n_n_0_1_1128_wf : GatherDims.WF S50000x128 S500000x1 S500000x128 [1] [0] [] [0] [] 1 ![1, 128]
  dot_S5000x128_S128x128_S5000x128_1_0_0_1_n_n_wf : DotDims.WF S5000x128 S128x128 S5000x128 [1] [0] [0] [1] [] []
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x8.size a ≤ S500000x8.size a
  hwx1_0 : ∀ i : grid1.Coords, EltTy.bits .f32 = 32 ∨ (Rect.block (s := S500000x8) S10000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S8x128.size a
  hwx1_1 : ∀ i : grid1.Coords, EltTy.bits .f32 = 32 ∨ (Rect.block (s := S8x128) S8x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S500000x128.size a
  hwx1_3 : ∀ i : grid1.Coords, EltTy.bits .f32 = 32 ∨ (Rect.block (s := S500000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S500000x128.size a
  hwx2_2 : ∀ i : grid2.Coords, EltTy.bits .f32 = 32 ∨ (Rect.block (s := S500000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S500000x128.size a
  hwx2_7 : ∀ i : grid2.Coords, EltTy.bits .f32 = 32 ∨ (Rect.block (s := S500000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S10000x8_S8x128_S10000x128_1_0_0_1_n_n : DotDims S10000x8 S8x128 S10000x128 where
  lhsContracting := [1]
  rhsContracting := [0]
  lhsNonContracting := [0]
  rhsNonContracting := [1]
  lhsBatch := []
  rhsBatch := []
  wf := dot_S10000x8_S8x128_S10000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S8x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v23) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x16 : Shape := ⟨2, ![50000, 16]⟩
abbrev S500000x8 : Shape := ⟨2, ![500000, 8]⟩
abbrev S2x500000 : Shape := ⟨2, ![2, 500000]⟩
abbrev S50000 : Shape := ⟨1, ![50000]⟩
abbrev S16x128 : Shape := ⟨2, ![16, 128]⟩
abbrev S128 : Shape := ⟨1, ![128]⟩
abbrev S8x128 : Shape := ⟨2, ![8, 128]⟩
abbrev S384x128 : Shape := ⟨2, ![384, 128]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S50000x128 : Shape := ⟨2, ![50000, 128]⟩
abbrev S1x128 : Shape := ⟨2, ![1, 128]⟩
abbrev S500000x128 : Shape := ⟨2, ![500000, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x384 : Shape := ⟨2, ![500000, 384]⟩
abbrev S50000x1 : Shape := ⟨2, ![50000, 1]⟩
abbrev S50000x256 : Shape := ⟨2, ![50000, 256]⟩
abbrev S64x128 : Shape := ⟨2, ![64, 128]⟩
abbrev S64 : Shape := ⟨1, ![64]⟩
abbrev S64x1 : Shape := ⟨2, ![64, 1]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S500000x8, .f32⟩
  | .hbm, ⟨2, _⟩ => ⟨S2x500000, .i32⟩
  | .hbm, ⟨3, _⟩ => ⟨S50000, .i32⟩
  | .hbm, ⟨4, _⟩ => ⟨S16x128, .f32⟩
  | .hbm, ⟨5, _⟩ => ⟨S128, .f32⟩
  | .hbm, ⟨6, _⟩ => ⟨S8x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S500000x128, .f32⟩
  | .hbm, ⟨21, _⟩ => ⟨S1x128, .f32⟩
  | .hbm, ⟨22, _⟩ => ⟨S500000x128, .f32⟩
  | .hbm, ⟨23, _⟩ => ⟨S500000x128, .f32⟩
  | .hbm, ⟨24, _⟩ => ⟨S1x500000, .i32⟩
  | .hbm, ⟨25, _⟩ => ⟨S500000, .i32⟩
  | .hbm, ⟨26, _⟩ => ⟨S1x500000, .i32⟩
  | .hbm, ⟨27, _⟩ => ⟨S500000, .i32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x128, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S500000x128, .f32⟩
  | .hbm, ⟨46, _⟩ => ⟨S500000x384, .f32⟩
  | .hbm, ⟨47, _⟩ => ⟨S500000x128, .f32⟩
  | .hbm, ⟨48, _⟩ => ⟨S1x128, .f32⟩
  | .hbm, ⟨49, _⟩ => ⟨S500000x128, .f32⟩
  | .hbm, ⟨50, _⟩ => ⟨S500000x128, .f32⟩
  | .hbm, ⟨51, _⟩ => ⟨S_, .f32⟩
  | .hbm, ⟨52, _⟩ => ⟨S500000x128, .f32⟩
  | .hbm, ⟨53, _⟩ => ⟨S500000x128, .f32⟩
  | .hbm, ⟨54, _⟩ => ⟨S_, .f32⟩
  | .hbm, ⟨55, _⟩ => ⟨S50000x128, .f32⟩
  | .hbm, ⟨56, _⟩ => ⟨S500000x1, .i32⟩
  | .hbm, ⟨57, _⟩ => ⟨S50000x128, .f32⟩
  | .hbm, ⟨58, _⟩ => ⟨S_, .f32⟩
  | .hbm, ⟨59, _⟩ => ⟨S500000, .f32⟩
  | .hbm, ⟨60, _⟩ => ⟨S_, .f32⟩
  | .hbm, ⟨61, _⟩ => ⟨S50000, .f32⟩
  | .hbm, ⟨62, _⟩ => ⟨S500000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S64x128, .f32⟩
  | .hbm, ⟨80, _⟩ => ⟨S50000x1, .i32⟩
  | .hbm, ⟨81, _⟩ => ⟨S64x128, .f32⟩
  | .hbm, ⟨82, _⟩ => ⟨S_, .f32⟩
  | .hbm, ⟨83, _⟩ => ⟨S50000, .f32⟩
  | .hbm, ⟨84, _⟩ => ⟨S_, .f32⟩
  | .hbm, ⟨85, _⟩ => ⟨S64, .f32⟩
  | .hbm, ⟨86, _⟩ => ⟨S50000x1, .i32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S64x1, .f32⟩
  | .hbm, ⟨92, _⟩ => ⟨S64x128, .f32⟩
  | .hbm, ⟨93, _⟩ => ⟨S64x128, .f32⟩
  | .hbm, ⟨94, _⟩ => ⟨S64x128, .f32⟩
  | .hbm, ⟨95, _⟩ => ⟨S1x128, .f32⟩
  | .hbm, ⟨96, _⟩ => ⟨S64x128, .f32⟩
  | .hbm, ⟨97, _⟩ => ⟨S64x128, .f32⟩
  | .hbm, ⟨98, _⟩ => ⟨S_, .f32⟩
  | .hbm, ⟨99, _⟩ => ⟨S64x128, .f32⟩
  | .hbm, ⟨100, _⟩ => ⟨S64x128, .f32⟩
  | .hbm, ⟨101, _⟩ => ⟨S64x1, .f32⟩
  | .hbm, ⟨102, _⟩ => ⟨S1x1, .f32⟩
  | .hbm, ⟨103, _⟩ => ⟨S64x1, .f32⟩
  | .hbm, ⟨104, _⟩ => ⟨S64x1, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_cst : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call2_cst : Ref sig .tc := ⟨.hbm, 98, rfl⟩
abbrev main_call2_v0 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S500000x128_0_1 : S1x128.BroadcastsInDim S500000x128 (![0, 1] : Fin 2 → Fin S500000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S_S500000x128 : S_.BroadcastsInDim S500000x128 (![] : Fin 0 → Fin S500000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S50000x16_S16x128_S50000x128_1_0_0_1_n_n_wf : DotDims.WF S50000x16 S16x128 S50000x128 [1] [0] [0] [1] [] []
  dot_S500000x8_S8x128_S500000x128_1_0_0_1_n_n_wf : DotDims.WF S500000x8 S8x128 S500000x128 [1] [0] [0] [1] [] []
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x256_S256x128_S50000x128_1_0_0_1_n_n_wf : DotDims.WF S50000x256 S256x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []

variable [Facts₀]

def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def dot_S500000x8_S8x128_S500000x128_1_0_0_1_n_n : DotDims S500000x8 S8x128 S500000x128 where
  lhsContracting := [1]
  rhsContracting := [0]
  lhsNonContracting := [0]
  rhsNonContracting := [1]
  lhsBatch := []
  rhsBatch := []
  wf := dot_S500000x8_S8x128_S500000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KernelRun.lean ====
/-
  The idealized kernel's whole run, with its result named.

  @main is nine segments: two encoder regions, a stretch of host operations (the two row gathers and the slices of
  the message weights), the message region, a stretch (the scatter-mean over the edges' targets), the update region,
  and the readout's three stretches. Every segment leaves each buffer at a known function of what it found, so the
  contents after the last segment are one fold from the launch memory; this module runs the segments and reads the
  result buffer and the sixteen arguments off the last contents.
-/
import proofs.«116420_j85873576116381_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends, without a fault, with the result buffer at the last boundary's
    contents and every argument as launched. -/
theorem run_result : θ_run defs (onTc (τ := τ) (main (F := F))) ⟨m, fun _ => 0, ρ⟩ (fun r => ∀ c : Dev nD,
      r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

end Cert.KernelIdeal.Gen

end
-- ==== Proof.Spec.lean ====
/-
  The mathematics both programs compute, entry by entry, on the extended reals.

  All four dense stages are affine maps of matrix rows: entry (p, q) of a stage is a sum of row-by-column products
  `Σ_k A(p, k) · W(k, q)` — one product for the two encoders, three for the message stage, two for the node update —
  plus a bias read at the column `q`; the message and update stages then take the larger of that and zero.
  The matrices are functions on index pairs, the extents kept as literals by the callers.
-/
import Idealize.ShloMosaic.Lib.ValueIdx
import Idealize.ShloMosaic.PureOps.Ideal

noncomputable section

namespace Cert.Spec

open Idealize.ShloMosaic Idealize.ShloMosaic.ValueIdx

/-- A matrix of extended reals with `a` rows and `b` columns. -/
abbrev Mat (a b : ℕ) := (⟨2, ![a, b]⟩ : Shape).Idx → EReal
/-- A vector of extended reals of length `b`. -/
abbrev Row (b : ℕ) := (⟨1, ![b]⟩ : Shape).Idx → EReal

variable {a b c : ℕ}

/-- Entry `(p, q)` of the product `A · W`: row `p` of `A` against column `q` of `W`. -/
def dot (A : Mat a b) (W : Mat b c) (p : Fin a) (q : Fin c) : EReal := ∑ k : Fin b, A (ix2 p k) * W (ix2 k q)

/-- A product entry depends only on the row of the left operand it reads. -/
theorem dot_congr {a' : ℕ} (x : Mat a b) (A : Mat a' b) (W : Mat b c) (p : Fin a) (p' : Fin a') (q : Fin c)
    (h : ∀ k, x (ix2 p k) = A (ix2 p' k)) : dot x W p q = dot A W p' q :=
  Finset.sum_congr rfl fun k _ => congrArg₂ (· * ·) (h k) rfl

/-- The zero both programs clamp at: the float word of +0. -/
abbrev zero : EReal := Ideal.ofBits .f32 0x00000000#32

/-- An encoder: `A · W + β`, the bias added along every row. -/
def lin (A : Mat a b) (W : Mat b c) (β : Row c) : Mat a c :=
  fun j => dot A W (j 0) (j 1) + β (ix1 (j 1))

/-- The node update: `max (A₁ · W₁ + A₂ · W₂ + β) 0`. -/
def relu2 (A₁ A₂ : Mat a b) (W₁ W₂ : Mat b c) (β : Row c) : Mat a c :=
  fun j => max (dot A₁ W₁ (j 0) (j 1) + dot A₂ W₂ (j 0) (j 1) + β (ix1 (j 1))) zero

/-- The message stage: `max (A₁ · W₁ + A₂ · W₂ + A₃ · W₃ + β) 0`. -/
def relu3 (A₁ A₂ A₃ : Mat a b) (W₁ W₂ W₃ : Mat b c) (β : Row c) : Mat a c :=
  fun j => max (dot A₁ W₁ (j 0) (j 1) + dot A₂ W₂ (j 0) (j 1) + dot A₃ W₃ (j 0) (j 1) + β (ix1 (j 1))) zero

/-- The band of `r` rows of `W` that starts at row `o`. -/
def band (o : ℕ) {n r : ℕ} (h : o + r ≤ n) (W : Mat n c) : Mat r c :=
  fun j => W (ix2 ⟨o + (j 0).val, by have := idx2_lt0 j; omega⟩ (j 1))

theorem band_apply (o : ℕ) {n r : ℕ} (h : o + r ≤ n) (W : Mat n c) (p : Fin r) (q : Fin c) :
    band o h W (ix2 p q) = W (ix2 ⟨o + p.val, by have := p.isLt; omega⟩ q) := rfl

theorem lin_apply (A : Mat a b) (W : Mat b c) (β : Row c) (p : Fin a) (q : Fin c) :
    lin A W β (ix2 p q) = dot A W p q + β (ix1 q) := rfl

theorem relu2_apply (A₁ A₂ : Mat a b) (W₁ W₂ : Mat b c) (β : Row c) (p : Fin a) (q : Fin c) :
    relu2 A₁ A₂ W₁ W₂ β (ix2 p q) = max (dot A₁ W₁ p q + dot A₂ W₂ p q + β (ix1 q)) zero := rfl

theorem relu3_apply (A₁ A₂ A₃ : Mat a b) (W₁ W₂ W₃ : Mat b c) (β : Row c) (p : Fin a) (q : Fin c) :
    relu3 A₁ A₂ A₃ W₁ W₂ W₃ β (ix2 p q)
      = max (dot A₁ W₁ p q + dot A₂ W₂ p q + dot A₃ W₃ p q + β (ix1 q)) zero := rfl

end Cert.Spec

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«116420_j85873576116381_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.Body.lean ====
/-
  The four kernel bodies at one output entry, on the extended reals.

  Each body multiplies blocks of rows by whole weight matrices — the narrowing of both operands to half precision is
  the identity here, and every product starts from zero —, adds the products, adds the bias (cast to one row and
  repeated down the block) and, in the message and update stages, takes the larger of that and zero. So entry (p, q)
  is a sum of row-by-column products `Σ_k A(p, k) · W(k, q)` plus `β(q)`, clamped at zero where the body clamps.
-/
import proofs.«116420_j85873576116381_2_alg».proof.Proof.Gen.KernelIdeal.Skeleton
import proofs.«116420_j85873576116381_2_alg».proof.Proof.Spec
import proofs.«116420_j85873576116381_2_alg».proof.Proof.LibMatmulRows
import Idealize.ShloMosaic.Lib.Pipeline.Value
import Idealize.ShloMosaic.Lib.ValueLayout

noncomputable section

namespace Cert.KernelIdeal.Body

open Idealize.ShloMosaic Idealize.ShloMosaic.ValueIdx Cert.KernelIdeal Cert.KernelIdeal.Gen

/-- A bias vector cast to one row and repeated down `a` rows, read at `(p, q)`: the bias at `q`. -/
theorem bias_rows {a : ℕ} (β : (⟨1, ![128]⟩ : Shape).Idx → EReal)
    (h₁ : (⟨1, ![128]⟩ : Shape).ShapeCasts ⟨2, ![1, 128]⟩)
    (h₂ : (⟨2, ![1, 128]⟩ : Shape).Broadcasts ⟨2, ![a, 128]⟩) (p : Fin a) (q : Fin 128) :
    broadcastTo ⟨2, ![a, 128]⟩ (shapeCast ⟨2, ![1, 128]⟩ β h₁) h₂ (ix2 p q) = β (ix1 q) := by
  refine (broadcastTo_apply _ h₂ (ix2 p q) (ix2 (0 : Fin 1) q) ?_).trans ?_
  · intro a
    match a with
    | ⟨0, _⟩ => rfl
    | ⟨1, _⟩ => rfl
  · refine (shapeCast_addUnit_apply ![128] β h₁ (ix2 (0 : Fin 1) q)).trans ?_
    refine congrArg β ?_
    funext d; match d with | ⟨0, _⟩ => rfl

/-- The node encoder's body at `(p, q)`. -/
theorem nodes_entry (v0 : Vec Ideal S5000x16 .f32) (v2 : Vec Ideal S16x128 .f32) (v5 : Vec Ideal S128 .f32)
    (p : Fin 5000) (q : Fin 128) :
    k0_pay1 (F := Ideal) v0 v2 v5 (ix2 p q) = Cert.Spec.dot v0 v2 p q + v5 (ix1 q) := by
  unfold k0_pay1
  refine (addf_apply _ _ _).trans ?_
  refine congrArg₂ (· + ·) ?_ ?_
  · exact Cert.LibMatmulRows.matmul_rows_apply dot_S5000x16_S16x128_S5000x128_1_0_0_1_n_n rfl rfl rfl rfl rfl rfl _ _ p q
  · exact bias_rows v5 _ _ p q

/-- The edge encoder's body at `(p, q)`. -/
theorem edges_entry (v0 : Vec Ideal S10000x8 .f32) (v2 : Vec Ideal S8x128 .f32) (v5 : Vec Ideal S128 .f32)
    (p : Fin 10000) (q : Fin 128) :
    k1_pay1 (F := Ideal) v0 v2 v5 (ix2 p q) = Cert.Spec.dot v0 v2 p q + v5 (ix1 q) := by
  unfold k1_pay1
  refine (addf_apply _ _ _).trans ?_
  refine congrArg₂ (· + ·) ?_ ?_
  · exact Cert.LibMatmulRows.matmul_rows_apply dot_S10000x8_S8x128_S10000x128_1_0_0_1_n_n rfl rfl rfl rfl rfl rfl _ _ p q
  · exact bias_rows v5 _ _ p q

/-- A product of a block of rows, cast to its own shape and narrowed, with a square weight matrix treated the same way. -/
theorem square_entry (A : Vec Ideal S5000x128 .f32) (W : Vec Ideal S128x128 .f32)
    (hA : S5000x128.ShapeCasts S5000x128) (hW : S128x128.ShapeCasts S128x128)
    (h₁ : FTy.bf16.bits < FTy.f32.bits) (p : Fin 5000) (q : Fin 128) :
    matmul (F := Ideal) dot_S5000x128_S128x128_S5000x128_1_0_0_1_n_n none
        (truncf .bf16 (shapeCast S5000x128 A hA) h₁) (truncf .bf16 (shapeCast S128x128 W hW) h₁)
        (constant S5000x128 .f32 0x00000000#32) (ix2 p q) = Cert.Spec.dot A W p q := by
  rw [shapeCast_self, shapeCast_self]
  exact Cert.LibMatmulRows.matmul_rows_apply dot_S5000x128_S128x128_S5000x128_1_0_0_1_n_n rfl rfl rfl rfl rfl rfl _ _ p q

/-- The message body at `(p, q)`. -/
theorem messages_entry (v0 v3 v6 : Vec Ideal S5000x128 .f32) (v9 v12 v15 : Vec Ideal S128x128 .f32)
    (v23 : Vec Ideal S128 .f32) (p : Fin 5000) (q : Fin 128) :
    k2_pay1 (F := Ideal) v0 v3 v6 v9 v12 v15 v23 (ix2 p q)
      = max (Cert.Spec.dot v0 v9 p q + Cert.Spec.dot v3 v12 p q + Cert.Spec.dot v6 v15 p q + v23 (ix1 q)) Cert.Spec.zero := by
  unfold k2_pay1
  refine (maximumf_apply _ _ _).trans ?_
  refine congrArg₂ max ?_ rfl
  refine (addf_apply _ _ _).trans ?_
  refine congrArg₂ (· + ·) ?_ (bias_rows v23 _ _ p q)
  refine (addf_apply _ _ _).trans ?_
  refine congrArg₂ (· + ·) ?_ (square_entry v6 v15 _ _ _ p q)
  refine (addf_apply _ _ _).trans ?_
  exact congrArg₂ (· + ·) (square_entry v0 v9 _ _ _ p q) (square_entry v3 v12 _ _ _ p q)

/-- The update body at `(p, q)`. -/
theorem update_entry (v0 v3 : Vec Ideal S5000x128 .f32) (v6 v9 : Vec Ideal S128x128 .f32)
    (v15 : Vec Ideal S128 .f32) (p : Fin 5000) (q : Fin 128) :
    k3_pay1 (F := Ideal) v0 v3 v6 v9 v15 (ix2 p q)
      = max (Cert.Spec.dot v0 v6 p q + Cert.Spec.dot v3 v9 p q + v15 (ix1 q)) Cert.Spec.zero := by
  unfold k3_pay1
  refine (maximumf_apply _ _ _).trans ?_
  refine congrArg₂ max ?_ rfl
  refine (addf_apply _ _ _).trans ?_
  refine congrArg₂ (· + ·) ?_ (bias_rows v15 _ _ p q)
  refine (addf_apply _ _ _).trans ?_
  exact congrArg₂ (· + ·) (square_entry v0 v6 _ _ _ p q) (square_entry v3 v9 _ _ _ p q)

end Cert.KernelIdeal.Body

end
-- ==== Proof.Blocks0.lean ====
/-
  The node encoder's array after its region.

  Grid point t handles rows 5000·t … 5000·t + 4999: it reads that block of rows of each moving operand, the whole of
  each weight matrix and of the bias, and writes back the same block of rows of the result. The 10 blocks tile the
  50000 rows and each is written once, so the array ends as the stage's function of the arrays the region found, entry by entry.
-/
import proofs.«116420_j85873576116381_2_alg».proof.Proof.Gen.KernelIdeal.Frame
import proofs.«116420_j85873576116381_2_alg».proof.Proof.Body

set_option maxRecDepth 16384

noncomputable section

namespace Cert.KernelIdeal.Blocks0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row blocks of the moving operands and of the result move together; the
    weights and the bias are whole. -/
theorem index0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 9 :=
  (by decide +kernel : ∀ t : Fin grid0.N, _)

/-- Every row block of the result is some point's. -/
theorem onto0 : ∀ q0 : Fin 10, ∃ t : Fin cfg0.N, win0_3.index t = ![q0.val, 0] :=
  (by decide +kernel : ∀ q0 : Fin 10, ∃ t : Fin grid0.N, win0_3.index t = ![q0.val, 0])

/-- Window 1's block is its whole array. -/
theorem whole0_1 (c : Dev nD) (t : Fin cfg0.N) : iblk0 V c 1 t = V c main_arg4 := by
  obtain ⟨e0, e1, e2, e3, e4, e5, e6⟩ := index0 t
  funext y
  show V c main_arg4 (((cfg0.win 1).blk t).view.emb y) = V c main_arg4 y
  refine congrArg (V c main_arg4) ?_
  funext a; apply Fin.ext
  match a with
  | ⟨0, _⟩ => show win0_1.index t (0 : Fin 2) * 16 + 1 * (y 0).val = (y 0).val; omega
  | ⟨1, _⟩ => show win0_1.index t (1 : Fin 2) * 128 + 1 * (y 1).val = (y 1).val; omega

/-- Window 2's block is its whole array. -/
theorem whole0_2 (c : Dev nD) (t : Fin cfg0.N) : iblk0 V c 2 t = V c main_arg5 := by
  obtain ⟨e0, e1, e2, e3, e4, e5, e6⟩ := index0 t
  funext y
  show V c main_arg5 (((cfg0.win 2).blk t).view.emb y) = V c main_arg5 y
  refine congrArg (V c main_arg5) ?_
  funext a; apply Fin.ext
  match a with
  | ⟨0, _⟩ => show win0_2.index t (0 : Fin 1) * 128 + 1 * (y 0).val = (y 0).val; omega

/-- Window 0's block at point `t` is the rows `5000·t …` of its array. -/
theorem rows0_0 (c : Dev nD) (t : Fin cfg0.N) (p : Fin 5000) (k : Fin 16) :
    iblk0 V c 0 t (ix2 p k) = V c main_arg0 (ix2 ⟨win0_3.index t (0 : Fin 2) * 5000 + p.val, by
      have := (index0 t).2.2.2.2.2.2; have := p.isLt; omega⟩ k) := by
  obtain ⟨e0, e1, e2, e3, e4, e5, e6⟩ := index0 t
  show V c main_arg0 (((cfg0.win 0).blk t).view.emb (ix2 p k)) = _
  refine congrArg (V c main_arg0) ?_
  funext a; apply Fin.ext
  match a with
  | ⟨0, _⟩ => show win0_0.index t (0 : Fin 2) * 5000 + 1 * p.val = win0_3.index t (0 : Fin 2) * 5000 + p.val; omega
  | ⟨1, _⟩ => show win0_0.index t (1 : Fin 2) * 16 + 1 * k.val = k.val; omega

/-- One block of the node encoder: if the moving blocks hold the rows `5000·ρ …` of their arrays, the body's entry `j` is
    the stage's entry at the array index `i` that `j` sits at. -/
theorem block0 (x0 : Vec Ideal S5000x16 .f32) (y0 : Vec Ideal S16x128 .f32) (y1 : Vec Ideal S128 .f32)
    (A0 : S50000x16.Idx → EReal) (ρ : ℕ) (hρ : ρ ≤ 9)
    (h0 : ∀ (p : Fin 5000) (k : Fin 16), x0 (ix2 p k) = A0 (ix2 ⟨ρ * 5000 + p.val, by have := p.isLt; omega⟩ k))
    (j : S5000x128.Idx) (i : S50000x128.Idx) (hi0 : (i 0).val = ρ * 5000 + (j 0).val) (hi1 : (i 1).val = (j 1).val) :
    k0_pay1 (F := Ideal) x0 y0 y1 j = Cert.Spec.lin A0 y0 y1 i := by
  obtain ⟨p, q, rfl⟩ : ∃ (p : Fin 5000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  obtain rfl : q = q' := (Fin.ext hi1).symm
  have hb : ρ * 5000 + p.val < 50000 := by have := p.isLt; omega
  obtain rfl : p' = ⟨ρ * 5000 + p.val, hb⟩ := Fin.ext hi0
  rw [Body.nodes_entry, Cert.Spec.lin_apply, Cert.Spec.dot_congr x0 A0 y0 p _ q (h0 p)]

/-- What point `t` writes back is block `t` of the node encoder of the arrays the region found. -/
theorem flushed0 (c : Dev nD) (t : Fin cfg0.N) :
    (dat0 V c).flushed 3 t = ((cfg0.win 3).blk t).view.read (Elt Ideal) (Cert.Spec.lin (V c main_arg0) (V c main_arg4) (V c main_arg5)) := by
  show (cfg0.win 3).cut (grid0.coords t) ((dat0 V c).after 3 t) = _
  rw [after0_3]
  unfold out0_3
  rw [View.canon_unit_zero hz2]
  simp only [View.ld_unit_zero (S := S5000x16) hz2, View.ld_unit_zero (S := S16x128) hz2, View.ld_unit_zero (S := S128) hz1]
  obtain ⟨e0, e1, e2, e3, e4, e5, e6⟩ := index0 t
  funext j
  show k0_pay1 (iblk0 V c 0 t) (iblk0 V c 1 t) (iblk0 V c 2 t) j = Cert.Spec.lin (V c main_arg0) (V c main_arg4) (V c main_arg5) (((cfg0.win 3).blk t).view.emb j)
  rw [← whole0_1 V c t, ← whole0_2 V c t]
  exact block0 (iblk0 V c 0 t) (iblk0 V c 1 t) (iblk0 V c 2 t) (V c main_arg0) (win0_3.index t (0 : Fin 2)) e6
    (fun p k => rows0_0 V c t p k) j _
    (by show win0_3.index t (0 : Fin 2) * 5000 + 1 * (j 0).val = win0_3.index t (0 : Fin 2) * 5000 + (j 0).val; omega)
    (by show win0_3.index t (1 : Fin 2) * 128 + 1 * (j 1).val = (j 1).val; omega)

/-- An index of the result array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- The row blocks tile the result array: row `ρ` is in block `ρ / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the region: the node encoder of the arrays the region found. -/
theorem final0 (c : Dev nD) :
    (dat0 V c).arrAt 3 cfg0.N = Cert.Spec.lin (V c main_arg0) (V c main_arg4) (V c main_arg5) :=
  (dat0 V c).arrAt_eq_of_cover 3 _ (fun t _ => flushed0 V c t) cover0

end Cert.KernelIdeal.Blocks0

end
-- ==== Proof.Blocks1.lean ====
/-
  The edge encoder's array after its region.

  Grid point t handles rows 10000·t … 10000·t + 9999: it reads that block of rows of each moving operand, the whole of
  each weight matrix and of the bias, and writes back the same block of rows of the result. The 50 blocks tile the
  500000 rows and each is written once, so the array ends as the stage's function of the arrays the region found, entry by entry.
-/
import proofs.«116420_j85873576116381_2_alg».proof.Proof.Gen.KernelIdeal.Frame
import proofs.«116420_j85873576116381_2_alg».proof.Proof.Body

set_option maxRecDepth 16384

noncomputable section

namespace Cert.KernelIdeal.Blocks1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row blocks of the moving operands and of the result move together; the
    weights and the bias are whole. -/
theorem index1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (1 : Fin 2) = 0
    ∧ win1_3.index t (0 : Fin 2) ≤ 49 :=
  (by decide +kernel : ∀ t : Fin grid1.N, _)

/-- Every row block of the result is some point's. -/
theorem onto1 : ∀ q0 : Fin 50, ∃ t : Fin cfg1.N, win1_3.index t = ![q0.val, 0] :=
  (by decide +kernel : ∀ q0 : Fin 50, ∃ t : Fin grid1.N, win1_3.index t = ![q0.val, 0])

/-- Window 1's block is its whole array. -/
theorem whole1_1 (c : Dev nD) (t : Fin cfg1.N) : iblk1 V c 1 t = V c main_arg6 := by
  obtain ⟨e0, e1, e2, e3, e4, e5, e6⟩ := index1 t
  funext y
  show V c main_arg6 (((cfg1.win 1).blk t).view.emb y) = V c main_arg6 y
  refine congrArg (V c main_arg6) ?_
  funext a; apply Fin.ext
  match a with
  | ⟨0, _⟩ => show win1_1.index t (0 : Fin 2) * 8 + 1 * (y 0).val = (y 0).val; omega
  | ⟨1, _⟩ => show win1_1.index t (1 : Fin 2) * 128 + 1 * (y 1).val = (y 1).val; omega

/-- Window 2's block is its whole array. -/
theorem whole1_2 (c : Dev nD) (t : Fin cfg1.N) : iblk1 V c 2 t = V c main_arg7 := by
  obtain ⟨e0, e1, e2, e3, e4, e5, e6⟩ := index1 t
  funext y
  show V c main_arg7 (((cfg1.win 2).blk t).view.emb y) = V c main_arg7 y
  refine congrArg (V c main_arg7) ?_
  funext a; apply Fin.ext
  match a with
  | ⟨0, _⟩ => show win1_2.index t (0 : Fin 1) * 128 + 1 * (y 0).val = (y 0).val; omega

/-- Window 0's block at point `t` is the rows `10000·t …` of its array. -/
theorem rows1_0 (c : Dev nD) (t : Fin cfg1.N) (p : Fin 10000) (k : Fin 8) :
    iblk1 V c 0 t (ix2 p k) = V c main_arg1 (ix2 ⟨win1_3.index t (0 : Fin 2) * 10000 + p.val, by
      have := (index1 t).2.2.2.2.2.2; have := p.isLt; omega⟩ k) := by
  obtain ⟨e0, e1, e2, e3, e4, e5, e6⟩ := index1 t
  show V c main_arg1 (((cfg1.win 0).blk t).view.emb (ix2 p k)) = _
  refine congrArg (V c main_arg1) ?_
  funext a; apply Fin.ext
  match a with
  | ⟨0, _⟩ => show win1_0.index t (0 : Fin 2) * 10000 + 1 * p.val = win1_3.index t (0 : Fin 2) * 10000 + p.val; omega
  | ⟨1, _⟩ => show win1_0.index t (1 : Fin 2) * 8 + 1 * k.val = k.val; omega

/-- One block of the edge encoder: if the moving blocks hold the rows `10000·ρ …` of their arrays, the body's entry `j` is
    the stage's entry at the array index `i` that `j` sits at. -/
theorem block1 (x0 : Vec Ideal S10000x8 .f32) (y0 : Vec Ideal S8x128 .f32) (y1 : Vec Ideal S128 .f32)
    (A0 : S500000x8.Idx → EReal) (ρ : ℕ) (hρ : ρ ≤ 49)
    (h0 : ∀ (p : Fin 10000) (k : Fin 8), x0 (ix2 p k) = A0 (ix2 ⟨ρ * 10000 + p.val, by have := p.isLt; omega⟩ k))
    (j : S10000x128.Idx) (i : S500000x128.Idx) (hi0 : (i 0).val = ρ * 10000 + (j 0).val) (hi1 : (i 1).val = (j 1).val) :
    k1_pay1 (F := Ideal) x0 y0 y1 j = Cert.Spec.lin A0 y0 y1 i := by
  obtain ⟨p, q, rfl⟩ : ∃ (p : Fin 10000) (q : Fin 128), j = ix2 p q := ⟨j 0, j 1, eq_ix2 j⟩
  obtain ⟨p', q', rfl⟩ : ∃ (p' : Fin 500000) (q' : Fin 128), i = ix2 p' q' := ⟨i 0, i 1, eq_ix2 i⟩
  obtain rfl : q = q' := (Fin.ext hi1).symm
  have hb : ρ * 10000 + p.val < 500000 := by have := p.isLt; omega
  obtain rfl : p' = ⟨ρ * 10000 + p.val, hb⟩ := Fin.ext hi0
  rw [Body.edges_entry, Cert.Spec.lin_apply, Cert.Spec.dot_congr x0 A0 y0 p _ q (h0 p)]

/-- What point `t` writes back is block `t` of the edge encoder of the arrays the region found. -/
theorem flushed1 (c : Dev nD) (t : Fin cfg1.N) :
    (dat1 V c).flushed 3 t = ((cfg1.win 3).blk t).view.read (Elt Ideal) (Cert.Spec.lin (V c main_arg1) (V c main_arg6) (V c main_arg7)) := by
  show (cfg1.win 3).cut (grid1.coords t) ((dat1 V c).after 3 t) = _
  rw [after1_3]
  unfold out1_3
  rw [View.canon_unit_zero hz2]
  simp only [View.ld_unit_zero (S := S10000x8) hz2, View.ld_unit_zero (S := S8x128) hz2, View.ld_unit_zero (S := S128) hz1]
  obtain ⟨e0, e1, e2, e3, e4, e5, e6⟩ := index1 t
  funext j
  show k1_pay1 (iblk1 V c 0 t) (iblk1 V c 1 t) (iblk1 V c 2 t) j = Cert.Spec.lin (V c main_arg1) (V c main_arg6) (V c main_arg7) (((cfg1.win 3).blk t).view.emb j)
  rw [← whole1_1 V c t, ← whole1_2 V c t]
  exact block1 (iblk1 V c 0 t) (iblk1 V c 1 t) (iblk1 V c 2 t) (V c main_arg1) (win1_3.index t (0 : Fin 2)) e6
    (fun p k => rows1_0 V c t p k) j _
    (by show win1_3.index t (0 : Fin 2) * 10000 + 1 * (j 0).val = win1_3.index t (0 : Fin 2) * 10000 + (j 0).val; omega)
    (by show win1_3.index t (1 : Fin 2) * 128 + 1 * (j 1).val = (j 1).val; omega)

/-- An index of the result array is in point `t`'s block iff each coordinate is in the block's range on its axis. -/
theorem mem_blk1 (t : Fin cfg1.N) (i : S500000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v1).slice (win1_3.rect t)).set ↔ _
  rw [View.set_slice_whole, Rect.mem_set_unit]
  exact Iff.rfl

/-- The row blocks tile the result array: row `ρ` is in block `ρ / 10000`. -/
theorem cover1 (i : S500000x128.Idx) : ∃ t : Fin cfg1.N, (cfg1.win 3).flush t = true ∧ i ∈ ((cfg1.win 3).blk t).view.set := by
  have hi0 : (i 0).val < 500000 := (i 0).isLt
  have hi1 : (i 1).val < 128 := (i 1).isLt
  obtain ⟨t, ht⟩ := onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- THE ARRAY after the region: the edge encoder of the arrays the region found. -/
theorem final1 (c : Dev nD) :
    (dat1 V c).arrAt 3 cfg1.N = Cert.Spec.lin (V c main_arg1) (V c main_arg6) (V c main_arg7) :=
  (dat1 V c).arrAt_eq_of_cover 3 _ (fun t _ => flushed1 V c t) cover1

end Cert.KernelIdeal.Blocks1

end
-- ==== Proof.Blocks2.lean ====
/-
  The message stage's array after its region.

  Grid point t handles rows 5000·t … 5000·t + 4999: it reads that block of rows of each moving operand, the whole of
  each weight matrix and of the bias, and writes back the same block of rows of the result. The 100 blocks tile the
  500000 rows and each is written once, so the array ends as the stage's function of the arrays the region found, entry by entry.
-/
import proofs.«116420_j85873576116381_2_alg».proof.Proof.Gen.KernelIdeal.Frame
import proofs.«116420_j85873576116381_2_alg».proof.Proof.Body

set_option maxRecDepth 16384

noncomputable section

namespace Cert.KernelIdeal.Blocks2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row blocks of the moving operands and of the result move together; the
    weights and the bias are whole. -/
theorem index2 : ∀ t : Fin cfg2.N, win2_0.index t (0 : Fin 2) = win2_7.index t (0 : Fin 2)
    ∧ win2_0.index t (1 : Fin 2) = 0
    ∧ win2_1.index t (0 : Fin 2) = win2_7.index t (0 : Fin 2)
    ∧ win2_1.index t (1 : Fin 2) = 0
    ∧ win2_2.index t (0 : Fin 2) = win2_7.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 1) = 0
    ∧ win2_7.index t (1 : Fin 2) = 0
    ∧ win2_7.index t (0 : Fin 2) ≤ 99 :=
  (by decide +kernel : ∀ t : Fin grid2.N, _)

/-- Every row block of the result is some point's. -/
theorem onto2 : ∀ q0 : Fin 100, ∃ t : Fin cfg2.N, win2_7.index t = ![q0.val, 0] :=
  (by decide +kernel : ∀ q0 : Fin 100, ∃ t : Fin grid2.N, win2_7.index t = ![q0.val, 0])

/-- Window 3's block is its whole array. -/
theorem whole2_3 (c : Dev nD) (t : Fin cfg2.N) : iblk2 V c 3 t = V c main_v20 := by
  obtain ⟨e0, e1, e2, e3, e4, e5, e6, e7, e8, e9, e10, e11, e12, e13, e14⟩ := index2 t
  funext y
  show V c main_v20 (((cfg2.win 3).blk t).view.emb y) = V c main_v20 y
  refine congrArg (V c main_v20) ?_
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4's block is its whole array. -/
theorem whole2_4 (c : Dev nD) (t : Fin cfg2.N) : iblk2 V c 4 t = V c main_v21 := by
  obtain ⟨e0, e1, e2, e3, e4, e5, e6, e7, e8, e9, e10, e11, e12, e13, e14⟩ := index2 t
  funext y
  show V c main_v21 (((cfg2.win 4).blk t).view.emb y) = V c main_v21 y
  refine congrArg (V c main_v21) ?_
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's block is its whole array. -/
theorem whole2_5 (c : Dev nD) (t : Fin cfg2.N) : iblk2 V c 5 t = V c main_v22 := by
  obtain ⟨e0, e1, e2, e3, e4, e5, e6, e7, e8, e9, e10, e11, e12, e13, e14⟩ := index2 t
  funext y
  show V c main_v22 (((cfg2.win 5).blk t).view.emb y) = V c main_v22 y
  refine congrArg (V c main_v22) ?_
  funext a; apply Fin.ext
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6's block is its whole array. -/
theorem whole2_6 (c : Dev nD) (t : Fin cfg2.N) : iblk2 V c 6 t = V c main_arg9 := by
  obtain ⟨e0, e1, e2, e3, e4, e5, e6, e7, e8, e9, e10, e11, e12, e13, e14⟩ := index2 t
  funext y
  show V c main_arg9 (((cfg2.win 6).blk t).view.emb y) = V c main_arg9 y
  refine congrArg (V c main_arg9) ?_
  funext a; apply Fin.ext
  match a with
  | ⟨0, _⟩ => show win2_6.index t (0 : Fin 1) * 128 + 1 * (y 0).val = (y 0).val; omega

/-- Window 0's block at point `t` is the rows `5000·t …` of its array. -/
theorem rows2_0 (c : Dev nD) (t : Fin cfg2.N) (p : Fin 5000) (k : Fin 128) :
    iblk2 V c 0 t (ix2 p k) = V c main_v12 (ix2 ⟨win2_7.index t (0 : Fin 2) * 5000 + p.val, by
      have := (index2 t).2.2.2.2.2.2.2.2.2.2.2.2.2.2; have := p.isLt; omega⟩ k) := by
  obtain ⟨e0, e1, e2, e3, e4, e5, e6, e7, e8, e9, e10, e11, e12, e13, e14⟩ := index2 t
  show V c main_v12 (((cfg2.win 0).blk t).view.emb (ix2 p k)) = _
  refine congrArg (V c main_v12) ?_
  funext a; apply Fin.ext
  match a with
  | ⟨0, _⟩ => show win2_0.index t (0 : Fin 2) * 5000 + 1 * p.val = win2_7.index t (0 : Fin 2) * 5000 + p.val; omega
  | ⟨1, _⟩ => show win2_0.index t (1 : Fin 2) * 128 + 1 * k.val = k.val; omega

/-- Window 1's block at point `t` is the rows `5000·t …` of its array. -/
theorem rows2_1 (c : Dev nD) (t : Fin cfg2.N) (p : Fin 5000) (k : Fin 128) :
    iblk2 V c 1 t (ix2 p k) = V c main_v19 (ix2 ⟨win2_7.index t (0 : Fin 2) * 5000 + p.val, by
      have := (index2 t).2.2.2.2.2.2.2.2.2.2.2.2.2.2; have := p.isLt; omega⟩ k) := by
  obtain ⟨e0, e1, e2, e3, e4, e5, e6, e7, e8, e9, e10, e11, e12, e13, e14⟩ := index2 t
  show V c main_v19 (((cfg2.win 1).blk t).view.emb (ix2 p k)) = _
  refine congrArg (V c main_v19) ?_
  funext a; apply Fin.ext
  match a with
  | ⟨0, _⟩ => show win2_1.index t (0 : Fin 2) * 5000 + 1 * p.val = win2_7.index t (0 : Fin 2) * 5000 + p.val; omega
  | ⟨1, _⟩ => show win2_1.index t (1 : Fin 2) * 128 + 1 * k.val = k.val; omega

/-- Window 2's block at point `t` is the rows `5000·t …` of its array. -/
theorem rows2_2 (c : Dev nD) (t : Fin cfg2.N) (p : Fin 5000) (k : Fin 128) :
    iblk2 V c 2 t (ix2 p k) = V c main_v1 (ix2 ⟨win2_7.index t (0 : Fin 2) * 5000 + p.val, by
      have := (index2 t).2.2.2.2.2.2.2.2.2.2.2.2.2.2; have := p.isLt; omega⟩ k) := by
  obtain ⟨e0, e1, e2, e3, e4, e5, e6, e7, e8, e9, e10, e11, e12, e13, e14⟩ := index2 t
  show V c main_v1 (((cfg2.win 2).blk t).view.emb (ix2 p k)) = _
  refine congrArg (V c main_v1) ?_
  funext a; apply Fin.ext
  match a with
  | ⟨0, _⟩ => show win2_2.index t (0 : Fin 2) * 5000 + 1 * p.val = win2_7.index t (0 : Fin 2) * 5000 + p.val; omega
  | ⟨1, _⟩ => show win2_2.index t (1 : Fin 2) * 128 + 1 * k.val = k.val; omega

/-- One block of the message stage: if the moving blocks hold the rows `5000·ρ …` of their arrays, the body's entry `j` is
    the stage's entry at the array index `i` that `j` sits at. -/
theorem block2 (x0 : Vec Ideal S5000x128 .f32) (x1 : Vec Ideal S5000x128 .f32) (x2 : Vec Ideal S5000x128 .f32) (y0 : Vec Ideal S128x128 .f32) (y1 : Vec Ideal S128x128 .f32) (y2 : Vec Ideal S128x128 .f32) (y3 : Vec Ideal S128 .f32)
    (A0 : S500000x128.Idx → EReal) (A1 : S500000x128.Idx → EReal) (A2 : S500000x128.Idx → EReal) (ρ : ℕ) (hρ : ρ ≤ 99)
    (h0 : ∀ (p : Fin 5000) (k : Fin 128), x0 (ix2 p k) = A0 (ix2 ⟨ρ * 5000 + p.val, by have := p.isLt; omega⟩ k))
    (h1 : ∀ (p : Fin 5000) (k : Fin 128), x1 (ix2 p k) = A1 (ix2 ⟨ρ * 5000 + p.val, by have := p.isLt; omega⟩ k))
    (h2 : ∀ (p : Fin 5000) (k : Fin 128), x2 (ix2 p k) = A2 (ix2 ⟨ρ * 5000 + p.val, by have := p.isLt; omega⟩ k))
    (j : S5000x128.Idx) (i : S500000x128.Idx) (hi0 : (i 0).val = ρ * 5000 + (j 0).val) (hi1 : (i 1).val = (j 1).val) :
    k2_pay1 (F := Ideal) x0 x1 x2 y0 y1 y2 y3 j = Cert.Spec.relu3 A0 A1 A2 y0 y1 y2 y3 i := by
  obtain ⟨p, q, rfl⟩ : ∃ (p : Fin 5000) (q : Fin 128), j = ix2 p q := ⟨j 0, j 1, eq_ix2 j⟩
  obtain ⟨p', q', rfl⟩ : ∃ (p' : Fin 500000) (q' : Fin 128), i = ix2 p' q' := ⟨i 0, i 1, eq_ix2 i⟩
  obtain rfl : q = q' := (Fin.ext hi1).symm
  have hb : ρ * 5000 + p.val < 500000 := by have := p.isLt; omega
  obtain rfl : p' = ⟨ρ * 5000 + p.val, hb⟩ := Fin.ext hi0
  rw [Body.messages_entry, Cert.Spec.relu3_apply, Cert.Spec.dot_congr x0 A0 y0 p _ q (h0 p), Cert.Spec.dot_congr x1 A1 y1 p _ q (h1 p), Cert.Spec.dot_congr x2 A2 y2 p _ q (h2 p)]

/-- What point `t` writes back is block `t` of the message stage of the arrays the region found. -/
theorem flushed2 (c : Dev nD) (t : Fin cfg2.N) :
    (dat2 V c).flushed 7 t = ((cfg2.win 7).blk t).view.read (Elt Ideal) (Cert.Spec.relu3 (V c main_v12) (V c main_v19) (V c main_v1) (V c main_v20) (V c main_v21) (V c main_v22) (V c main_arg9)) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10, e11, e12, e13, e14⟩ := index2 t
  funext j
  show k2_pay1 (iblk2 V c 0 t) (iblk2 V c 1 t) (iblk2 V c 2 t) (iblk2 V c 3 t) (iblk2 V c 4 t) (iblk2 V c 5 t) (iblk2 V c 6 t) j = Cert.Spec.relu3 (V c main_v12) (V c main_v19) (V c main_v1) (V c main_v20) (V c main_v21) (V c main_v22) (V c main_arg9) (((cfg2.win 7).blk t).view.emb j)
  rw [← whole2_3 V c t, ← whole2_4 V c t, ← whole2_5 V c t, ← whole2_6 V c t]
  exact block2 (iblk2 V c 0 t) (iblk2 V c 1 t) (iblk2 V c 2 t) (iblk2 V c 3 t) (iblk2 V c 4 t) (iblk2 V c 5 t) (iblk2 V c 6 t) (V c main_v12) (V c main_v19) (V c main_v1) (win2_7.index t (0 : Fin 2)) e14
    (fun p k => rows2_0 V c t p k) (fun p k => rows2_1 V c t p k) (fun p k => rows2_2 V c t p k) j _
    (by show win2_7.index t (0 : Fin 2) * 5000 + 1 * (j 0).val = win2_7.index t (0 : Fin 2) * 5000 + (j 0).val; omega)
    (by show win2_7.index t (1 : Fin 2) * 128 + 1 * (j 1).val = (j 1).val; omega)

/-- An index of the result array is in point `t`'s block iff each coordinate is in the block's range on its axis. -/
theorem mem_blk2 (t : Fin cfg2.N) (i : S500000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v23).slice (win2_7.rect t)).set ↔ _
  rw [View.set_slice_whole, Rect.mem_set_unit]
  exact Iff.rfl

/-- The row blocks tile the result array: row `ρ` is in block `ρ / 5000`. -/
theorem cover2 (i : S500000x128.Idx) : ∃ t : Fin cfg2.N, (cfg2.win 7).flush t = true ∧ i ∈ ((cfg2.win 7).blk t).view.set := by
  have hi0 : (i 0).val < 500000 := (i 0).isLt
  have hi1 : (i 1).val < 128 := (i 1).isLt
  obtain ⟨t, ht⟩ := onto2 ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_blk2]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- THE ARRAY after the region: the message stage of the arrays the region found. -/
theorem final2 (c : Dev nD) :
    (dat2 V c).arrAt 7 cfg2.N = Cert.Spec.relu3 (V c main_v12) (V c main_v19) (V c main_v1) (V c main_v20) (V c main_v21) (V c main_v22) (V c main_arg9) :=
  (dat2 V c).arrAt_eq_of_cover 7 _ (fun t _ => flushed2 V c t) cover2

end Cert.KernelIdeal.Blocks2

end
-- ==== Proof.Blocks3.lean ====
/-
  The node update's array after its region.

  Grid point t handles rows 5000·t … 5000·t + 4999: it reads that block of rows of each moving operand, the whole of
  each weight matrix and of the bias, and writes back the same block of rows of the result. The 10 blocks tile the
  50000 rows and each is written once, so the array ends as the stage's function of the arrays the region found, entry by entry.
-/
import proofs.«116420_j85873576116381_2_alg».proof.Proof.Gen.KernelIdeal.Frame
import proofs.«116420_j85873576116381_2_alg».proof.Proof.Body

set_option maxRecDepth 16384

noncomputable section

namespace Cert.KernelIdeal.Blocks3

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row blocks of the moving operands and of the result move together; the
    weights and the bias are whole. -/
theorem index3 : ∀ t : Fin cfg3.N, win3_0.index t (0 : Fin 2) = win3_5.index t (0 : Fin 2)
    ∧ win3_0.index t (1 : Fin 2) = 0
    ∧ win3_1.index t (0 : Fin 2) = win3_5.index t (0 : Fin 2)
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 1) = 0
    ∧ win3_5.index t (1 : Fin 2) = 0
    ∧ win3_5.index t (0 : Fin 2) ≤ 9 :=
  (by decide +kernel : ∀ t : Fin grid3.N, _)

/-- Every row block of the result is some point's. -/
theorem onto3 : ∀ q0 : Fin 10, ∃ t : Fin cfg3.N, win3_5.index t = ![q0.val, 0] :=
  (by decide +kernel : ∀ q0 : Fin 10, ∃ t : Fin grid3.N, win3_5.index t = ![q0.val, 0])

/-- Window 2's block is its whole array. -/
theorem whole3_2 (c : Dev nD) (t : Fin cfg3.N) : iblk3 V c 2 t = V c main_v36 := by
  obtain ⟨e0, e1, e2, e3, e4, e5, e6, e7, e8, e9, e10⟩ := index3 t
  funext y
  show V c main_v36 (((cfg3.win 2).blk t).view.emb y) = V c main_v36 y
  refine congrArg (V c main_v36) ?_
  funext a; apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- Window 3's block is its whole array. -/
theorem whole3_3 (c : Dev nD) (t : Fin cfg3.N) : iblk3 V c 3 t = V c main_v37 := by
  obtain ⟨e0, e1, e2, e3, e4, e5, e6, e7, e8, e9, e10⟩ := index3 t
  funext y
  show V c main_v37 (((cfg3.win 3).blk t).view.emb y) = V c main_v37 y
  refine congrArg (V c main_v37) ?_
  funext a; apply Fin.ext
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- Window 4's block is its whole array. -/
theorem whole3_4 (c : Dev nD) (t : Fin cfg3.N) : iblk3 V c 4 t = V c main_arg11 := by
  obtain ⟨e0, e1, e2, e3, e4, e5, e6, e7, e8, e9, e10⟩ := index3 t
  funext y
  show V c main_arg11 (((cfg3.win 4).blk t).view.emb y) = V c main_arg11 y
  refine congrArg (V c main_arg11) ?_
  funext a; apply Fin.ext
  match a with
  | ⟨0, _⟩ => show win3_4.index t (0 : Fin 1) * 128 + 1 * (y 0).val = (y 0).val; omega

/-- Window 0's block at point `t` is the rows `5000·t …` of its array. -/
theorem rows3_0 (c : Dev nD) (t : Fin cfg3.N) (p : Fin 5000) (k : Fin 128) :
    iblk3 V c 0 t (ix2 p k) = V c main_v0 (ix2 ⟨win3_5.index t (0 : Fin 2) * 5000 + p.val, by
      have := (index3 t).2.2.2.2.2.2.2.2.2.2; have := p.isLt; omega⟩ k) := by
  obtain ⟨e0, e1, e2, e3, e4, e5, e6, e7, e8, e9, e10⟩ := index3 t
  show V c main_v0 (((cfg3.win 0).blk t).view.emb (ix2 p k)) = _
  refine congrArg (V c main_v0) ?_
  funext a; apply Fin.ext
  match a with
  | ⟨0, _⟩ => show win3_0.index t (0 : Fin 2) * 5000 + 1 * p.val = win3_5.index t (0 : Fin 2) * 5000 + p.val; omega
  | ⟨1, _⟩ => show win3_0.index t (1 : Fin 2) * 128 + 1 * k.val = k.val; omega

/-- Window 1's block at point `t` is the rows `5000·t …` of its array. -/
theorem rows3_1 (c : Dev nD) (t : Fin cfg3.N) (p : Fin 5000) (k : Fin 128) :
    iblk3 V c 1 t (ix2 p k) = V c main_v35 (ix2 ⟨win3_5.index t (0 : Fin 2) * 5000 + p.val, by
      have := (index3 t).2.2.2.2.2.2.2.2.2.2; have := p.isLt; omega⟩ k) := by
  obtain ⟨e0, e1, e2, e3, e4, e5, e6, e7, e8, e9, e10⟩ := index3 t
  show V c main_v35 (((cfg3.win 1).blk t).view.emb (ix2 p k)) = _
  refine congrArg (V c main_v35) ?_
  funext a; apply Fin.ext
  match a with
  | ⟨0, _⟩ => show win3_1.index t (0 : Fin 2) * 5000 + 1 * p.val = win3_5.index t (0 : Fin 2) * 5000 + p.val; omega
  | ⟨1, _⟩ => show win3_1.index t (1 : Fin 2) * 128 + 1 * k.val = k.val; omega

/-- One block of the node update: if the moving blocks hold the rows `5000·ρ …` of their arrays, the body's entry `j` is
    the stage's entry at the array index `i` that `j` sits at. -/
theorem block3 (x0 : Vec Ideal S5000x128 .f32) (x1 : Vec Ideal S5000x128 .f32) (y0 : Vec Ideal S128x128 .f32) (y1 : Vec Ideal S128x128 .f32) (y2 : Vec Ideal S128 .f32)
    (A0 : S50000x128.Idx → EReal) (A1 : S50000x128.Idx → EReal) (ρ : ℕ) (hρ : ρ ≤ 9)
    (h0 : ∀ (p : Fin 5000) (k : Fin 128), x0 (ix2 p k) = A0 (ix2 ⟨ρ * 5000 + p.val, by have := p.isLt; omega⟩ k))
    (h1 : ∀ (p : Fin 5000) (k : Fin 128), x1 (ix2 p k) = A1 (ix2 ⟨ρ * 5000 + p.val, by have := p.isLt; omega⟩ k))
    (j : S5000x128.Idx) (i : S50000x128.Idx) (hi0 : (i 0).val = ρ * 5000 + (j 0).val) (hi1 : (i 1).val = (j 1).val) :
    k3_pay1 (F := Ideal) x0 x1 y0 y1 y2 j = Cert.Spec.relu2 A0 A1 y0 y1 y2 i := by
  obtain ⟨p, q, rfl⟩ : ∃ (p : Fin 5000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  obtain rfl : q = q' := (Fin.ext hi1).symm
  have hb : ρ * 5000 + p.val < 50000 := by have := p.isLt; omega
  obtain rfl : p' = ⟨ρ * 5000 + p.val, hb⟩ := Fin.ext hi0
  rw [Body.update_entry, Cert.Spec.relu2_apply, Cert.Spec.dot_congr x0 A0 y0 p _ q (h0 p), Cert.Spec.dot_congr x1 A1 y1 p _ q (h1 p)]

/-- What point `t` writes back is block `t` of the node update of the arrays the region found. -/
theorem flushed3 (c : Dev nD) (t : Fin cfg3.N) :
    (dat3 V c).flushed 5 t = ((cfg3.win 5).blk t).view.read (Elt Ideal) (Cert.Spec.relu2 (V c main_v0) (V c main_v35) (V c main_v36) (V c main_v37) (V c main_arg11)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10⟩ := index3 t
  funext j
  show k3_pay1 (iblk3 V c 0 t) (iblk3 V c 1 t) (iblk3 V c 2 t) (iblk3 V c 3 t) (iblk3 V c 4 t) j = Cert.Spec.relu2 (V c main_v0) (V c main_v35) (V c main_v36) (V c main_v37) (V c main_arg11) (((cfg3.win 5).blk t).view.emb j)
  rw [← whole3_2 V c t, ← whole3_3 V c t, ← whole3_4 V c t]
  exact block3 (iblk3 V c 0 t) (iblk3 V c 1 t) (iblk3 V c 2 t) (iblk3 V c 3 t) (iblk3 V c 4 t) (V c main_v0) (V c main_v35) (win3_5.index t (0 : Fin 2)) e10
    (fun p k => rows3_0 V c t p k) (fun p k => rows3_1 V c t p k) j _
    (by show win3_5.index t (0 : Fin 2) * 5000 + 1 * (j 0).val = win3_5.index t (0 : Fin 2) * 5000 + (j 0).val; omega)
    (by show win3_5.index t (1 : Fin 2) * 128 + 1 * (j 1).val = (j 1).val; omega)

/-- An index of the result array is in point `t`'s block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v38).slice (win3_5.rect t)).set ↔ _
  rw [View.set_slice_whole, Rect.mem_set_unit]
  exact Iff.rfl

/-- The row blocks tile the result array: row `ρ` is in block `ρ / 5000`. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- THE ARRAY after the region: the node update of the arrays the region found. -/
theorem final3 (c : Dev nD) :
    (dat3 V c).arrAt 5 cfg3.N = Cert.Spec.relu2 (V c main_v0) (V c main_v35) (V c main_v36) (V c main_v37) (V c main_arg11) :=
  (dat3 V c).arrAt_eq_of_cover 5 _ (fun t _ => flushed3 V c t) cover3

end Cert.KernelIdeal.Blocks3

end
-- ==== Proof.RefStages.lean ====
/-
  The reference program's four dense stages, entry by entry.

  Each stage of the reference is a matrix product followed by a bias added along the rows (and, for the message and
  update stages, a clamp at zero). Entry (p, q) of the product is the sum over k of the left operand at (p, k) times the
  weight at (k, q). In the message and update stages the left operand is several matrices laid side by side along the
  columns, so the sum over the joined axis splits into one sum per piece, each against the band of weight rows that
  faces that piece. Only the commutative-monoid structure of addition on the extended reals is used.
-/
import proofs.«116420_j85873576116381_2_alg».proof.Proof.Gen.ReferenceIdeal.Read
import proofs.«116420_j85873576116381_2_alg».proof.Proof.Spec
import Idealize.ShloMosaic.Lib.Pipeline.Value
import Idealize.ShloMosaic.Lib.ValueIdx
import Idealize.ShloMosaic.PureOps.Ideal.Laws

noncomputable section

namespace Cert.RefStages

open Cert.ReferenceIdeal Cert.ReferenceIdeal.Gen Cert.ReferenceIdeal.Read Idealize.ShloMosaic Idealize.ShloMosaic.ValueIdx

/-! ## Splitting a sum over the joined axis into its bands -/

/-- A sum over 256 consecutive positions is the sum over the first 128 plus the sum over the last 128. -/
theorem sum256 {M : Type} [AddCommMonoid M] (f : Fin 256 → M) :
    ∑ k : Fin 256, f k
      = (∑ k : Fin 128, f ⟨k.val, by have := k.isLt; omega⟩)
        + ∑ k : Fin 128, f ⟨128 + k.val, by have := k.isLt; omega⟩ :=
  Fin.sum_univ_add (a := 128) (b := 128) f

/-- A sum over 384 consecutive positions is the sum of the sums over its three bands of 128. -/
theorem sum384 {M : Type} [AddCommMonoid M] (f : Fin 384 → M) :
    ∑ k : Fin 384, f k
      = (∑ k : Fin 128, f ⟨k.val, by have := k.isLt; omega⟩)
        + (∑ k : Fin 128, f ⟨128 + k.val, by have := k.isLt; omega⟩)
        + ∑ k : Fin 128, f ⟨256 + k.val, by have := k.isLt; omega⟩ := by
  have h1 : ∑ k : Fin 384, f k
      = (∑ k : Fin 256, f ⟨k.val, by have := k.isLt; omega⟩)
        + ∑ k : Fin 128, f ⟨256 + k.val, by have := k.isLt; omega⟩ :=
    Fin.sum_univ_add (a := 256) (b := 128) f
  rw [h1, sum256]

/-! ## A concatenation along the columns, read in each band -/

section Cat3
variable {α : Type} (A B C : S500000x128.Idx → α)

/-- Three [500000,128] arrays side by side. -/
abbrev cat3 : S500000x384.Idx → α :=
  concatenate S500000x384 1 [⟨S500000x128, A⟩, ⟨S500000x128, B⟩, ⟨S500000x128, C⟩]
    concatenates_S500000x128_S500000x128_S500000x128_S500000x384_d1

theorem cat3_fst (p : Fin 500000) (k : Fin 128) :
    cat3 A B C (ix2 p ⟨k.val, by have := k.isLt; omega⟩) = A (ix2 p k) :=
  concatenate_apply_piece (t := S500000x384) 1 [⟨S500000x128, A⟩, ⟨S500000x128, B⟩, ⟨S500000x128, C⟩] concatenates_S500000x128_S500000x128_S500000x128_S500000x384_d1 (ix2 p ⟨k.val, by have := k.isLt; omega⟩) 0 (show (0 : Nat) < 3 by decide) S500000x128 A rfl rfl 0 rfl (ix2 p k)
    (fun b => match b with
      | ⟨0, _⟩ => fun _ => rfl
      | ⟨1, _⟩ => fun hb => absurd rfl hb)
    (Nat.zero_add _)

theorem cat3_snd (p : Fin 500000) (k : Fin 128) :
    cat3 A B C (ix2 p ⟨128 + k.val, by have := k.isLt; omega⟩) = B (ix2 p k) :=
  concatenate_apply_piece (t := S500000x384) 1 [⟨S500000x128, A⟩, ⟨S500000x128, B⟩, ⟨S500000x128, C⟩] concatenates_S500000x128_S500000x128_S500000x128_S500000x384_d1 (ix2 p ⟨128 + k.val, by have := k.isLt; omega⟩) 1 (show (1 : Nat) < 3 by decide) S500000x128 B rfl rfl 128 rfl (ix2 p k)
    (fun b => match b with
      | ⟨0, _⟩ => fun _ => rfl
      | ⟨1, _⟩ => fun hb => absurd rfl hb)
    rfl

theorem cat3_trd (p : Fin 500000) (k : Fin 128) :
    cat3 A B C (ix2 p ⟨256 + k.val, by have := k.isLt; omega⟩) = C (ix2 p k) :=
  concatenate_apply_piece (t := S500000x384) 1 [⟨S500000x128, A⟩, ⟨S500000x128, B⟩, ⟨S500000x128, C⟩] concatenates_S500000x128_S500000x128_S500000x128_S500000x384_d1 (ix2 p ⟨256 + k.val, by have := k.isLt; omega⟩) 2 (show (2 : Nat) < 3 by decide) S500000x128 C rfl rfl 256 rfl (ix2 p k)
    (fun b => match b with
      | ⟨0, _⟩ => fun _ => rfl
      | ⟨1, _⟩ => fun hb => absurd rfl hb)
    rfl

end Cat3

section Cat2
variable {α : Type} (A B : S50000x128.Idx → α)

/-- Two [50000,128] arrays side by side. -/
abbrev cat2 : S50000x256.Idx → α :=
  concatenate S50000x256 1 [⟨S50000x128, A⟩, ⟨S50000x128, B⟩] concatenates_S50000x128_S50000x128_S50000x256_d1

theorem cat2_fst (p : Fin 50000) (k : Fin 128) :
    cat2 A B (ix2 p ⟨k.val, by have := k.isLt; omega⟩) = A (ix2 p k) :=
  concatenate_apply_piece (t := S50000x256) 1 [⟨S50000x128, A⟩, ⟨S50000x128, B⟩] concatenates_S50000x128_S50000x128_S50000x256_d1 (ix2 p ⟨k.val, by have := k.isLt; omega⟩) 0 (show (0 : Nat) < 2 by decide) S50000x128 A rfl rfl 0 rfl (ix2 p k)
    (fun b => match b with
      | ⟨0, _⟩ => fun _ => rfl
      | ⟨1, _⟩ => fun hb => absurd rfl hb)
    (Nat.zero_add _)

theorem cat2_snd (p : Fin 50000) (k : Fin 128) :
    cat2 A B (ix2 p ⟨128 + k.val, by have := k.isLt; omega⟩) = B (ix2 p k) :=
  concatenate_apply_piece (t := S50000x256) 1 [⟨S50000x128, A⟩, ⟨S50000x128, B⟩] concatenates_S50000x128_S50000x128_S50000x256_d1 (ix2 p ⟨128 + k.val, by have := k.isLt; omega⟩) 1 (show (1 : Nat) < 2 by decide) S50000x128 B rfl rfl 128 rfl (ix2 p k)
    (fun b => match b with
      | ⟨0, _⟩ => fun _ => rfl
      | ⟨1, _⟩ => fun hb => absurd rfl hb)
    rfl

end Cat2

/-! ## A product over the joined axis is the sum of the band products -/

/-- Row \`p\` of three matrices side by side against column \`q\` of a 384-row weight: the three pieces each meet
    their own band of 128 weight rows. -/
theorem dot_cat3 (A B C : Cert.Spec.Mat 500000 128) (W : Cert.Spec.Mat 384 128) (p : Fin 500000) (q : Fin 128) :
    ∑ k : Fin 384, cat3 A B C (ix2 p k) * W (ix2 k q)
      = Cert.Spec.dot A (Cert.Spec.band 0 (by norm_num) W) p q + Cert.Spec.dot B (Cert.Spec.band 128 (by norm_num) W) p q
        + Cert.Spec.dot C (Cert.Spec.band 256 (by norm_num) W) p q := by
  rw [sum384]
  unfold Cert.Spec.dot
  congr 1
  · congr 1
    · refine Finset.sum_congr rfl fun k _ => ?_
      rw [cat3_fst, Cert.Spec.band_apply]
      simp only [Nat.zero_add]
    · refine Finset.sum_congr rfl fun k _ => ?_
      rw [cat3_snd, Cert.Spec.band_apply]
  · refine Finset.sum_congr rfl fun k _ => ?_
    rw [cat3_trd, Cert.Spec.band_apply]

/-- Row \`p\` of two matrices side by side against column \`q\` of a 256-row weight. -/
theorem dot_cat2 (A B : Cert.Spec.Mat 50000 128) (W : Cert.Spec.Mat 256 128) (p : Fin 50000) (q : Fin 128) :
    ∑ k : Fin 256, cat2 A B (ix2 p k) * W (ix2 k q)
      = Cert.Spec.dot A (Cert.Spec.band 0 (by norm_num) W) p q + Cert.Spec.dot B (Cert.Spec.band 128 (by norm_num) W) p q := by
  rw [sum256]
  unfold Cert.Spec.dot
  congr 1
  · refine Finset.sum_congr rfl fun k _ => ?_
    rw [cat2_fst, Cert.Spec.band_apply]
    simp only [Nat.zero_add]
  · refine Finset.sum_congr rfl fun k _ => ?_
    rw [cat2_snd, Cert.Spec.band_apply]

/-! ## The two encoders -/

/-- The node encoder: the node features times the weight, plus the bias along every row. -/
theorem enc_nodes (x0 : (⟨S50000x16, .f32⟩ : BufTy).Contents (Elt Ideal)) (x4 : (⟨S16x128, .f32⟩ : BufTy).Contents (Elt Ideal)) (x5 : (⟨S128, .f32⟩ : BufTy).Contents (Elt Ideal)) :
    val_main_v3 (F := Ideal) x0 x4 x5 = Cert.Spec.lin x0 x4 x5 := by
  funext j
  obtain ⟨p, q, rfl⟩ : ∃ (p : Fin 50000) (q : Fin 128), j = ix2 p q := ⟨j 0, j 1, eq_ix2 j⟩
  rw [Cert.Spec.lin_apply, val_main_v3_apply, val_main_v0_apply, val_main_v2_apply, val_main_v1_apply]
  have eb : idx_main_v1 (idx_main_v2 (ix2 p q)) = ix1 q := funext fun a => by match a with | ⟨0, _⟩ => rfl
  have hsum : ∑ k : Fin 16, x0 (lidx_main_v0 (ix2 p q) k) * x4 (ridx_main_v0 (ix2 p q) k)
      = ∑ k : Fin 16, x0 (ix2 p k) * x4 (ix2 k q) :=
    Finset.sum_congr rfl fun k _ => by
      have el : lidx_main_v0 (ix2 p q) k = ix2 p k := funext fun a => by match a with | ⟨0, _⟩ => rfl | ⟨1, _⟩ => rfl
      have er : ridx_main_v0 (ix2 p q) k = ix2 k q := funext fun a => by match a with | ⟨0, _⟩ => rfl | ⟨1, _⟩ => rfl
      rw [el, er]
  rw [eb, hsum]
  rfl

/-- The edge encoder: the edge features times the weight, plus the bias along every row. -/
theorem enc_edges (x1 : (⟨S500000x8, .f32⟩ : BufTy).Contents (Elt Ideal)) (x6 : (⟨S8x128, .f32⟩ : BufTy).Contents (Elt Ideal)) (x7 : (⟨S128, .f32⟩ : BufTy).Contents (Elt Ideal)) :
    val_main_v7 (F := Ideal) x1 x6 x7 = Cert.Spec.lin x1 x6 x7 := by
  funext j
  obtain ⟨p, q, rfl⟩ : ∃ (p : Fin 500000) (q : Fin 128), j = ix2 p q := ⟨j 0, j 1, eq_ix2 j⟩
  rw [Cert.Spec.lin_apply, val_main_v7_apply, val_main_v4_apply, val_main_v6_apply, val_main_v5_apply]
  have eb : idx_main_v5 (idx_main_v6 (ix2 p q)) = ix1 q := funext fun a => by match a with | ⟨0, _⟩ => rfl
  have hsum : ∑ k : Fin 8, x1 (lidx_main_v4 (ix2 p q) k) * x6 (ridx_main_v4 (ix2 p q) k)
      = ∑ k : Fin 8, x1 (ix2 p k) * x6 (ix2 k q) :=
    Finset.sum_congr rfl fun k _ => by
      have el : lidx_main_v4 (ix2 p q) k = ix2 p k := funext fun a => by match a with | ⟨0, _⟩ => rfl | ⟨1, _⟩ => rfl
      have er : ridx_main_v4 (ix2 p q) k = ix2 k q := funext fun a => by match a with | ⟨0, _⟩ => rfl | ⟨1, _⟩ => rfl
      rw [el, er]
  rw [eb, hsum]
  rfl

/-! ## The message stage -/

/-- A message: the two gathered node rows and the encoded edge row, side by side, times the weight, plus the bias,
    clamped at zero. The gathered arrays enter only as matrices: nothing about which rows they hold is used. -/
theorem messages (x0 : (⟨S50000x16, .f32⟩ : BufTy).Contents (Elt Ideal)) (x1 : (⟨S500000x8, .f32⟩ : BufTy).Contents (Elt Ideal)) (x2 : (⟨S2x500000, .i32⟩ : BufTy).Contents (Elt Ideal)) (x4 : (⟨S16x128, .f32⟩ : BufTy).Contents (Elt Ideal)) (x5 : (⟨S128, .f32⟩ : BufTy).Contents (Elt Ideal)) (x6 : (⟨S8x128, .f32⟩ : BufTy).Contents (Elt Ideal)) (x7 : (⟨S128, .f32⟩ : BufTy).Contents (Elt Ideal)) (x8 : (⟨S384x128, .f32⟩ : BufTy).Contents (Elt Ideal)) (x9 : (⟨S128, .f32⟩ : BufTy).Contents (Elt Ideal)) :
    val_main_v31 (F := Ideal) x0 x1 x2 x4 x5 x6 x7 x8 x9
      = Cert.Spec.relu3 (val_main_v18 (F := Ideal) x0 x2 x4 x5) (val_main_v25 (F := Ideal) x0 x2 x4 x5) (val_main_v7 (F := Ideal) x1 x6 x7)
          (Cert.Spec.band 0 (by norm_num) x8) (Cert.Spec.band 128 (by norm_num) x8) (Cert.Spec.band 256 (by norm_num) x8) x9 := by
  funext j
  obtain ⟨p, q, rfl⟩ : ∃ (p : Fin 500000) (q : Fin 128), j = ix2 p q := ⟨j 0, j 1, eq_ix2 j⟩
  rw [Cert.Spec.relu3_apply, val_main_v31_apply, val_main_v30_apply, val_main_v27_apply, val_main_v29_apply,
    val_main_v28_apply, val_main_call0_v0_apply, val_main_call0_cst_apply]
  have eb : idx_main_v28 (idx_main_v29 (ix2 p q)) = ix1 q := funext fun a => by match a with | ⟨0, _⟩ => rfl
  have e26 : val_main_v26 (F := Ideal) x0 x1 x2 x4 x5 x6 x7 = cat3 (val_main_v18 (F := Ideal) x0 x2 x4 x5) (val_main_v25 (F := Ideal) x0 x2 x4 x5) (val_main_v7 (F := Ideal) x1 x6 x7) := rfl
  have hsum : ∀ Y : S500000x384.Idx → EReal,
      ∑ k : Fin 384, Y (lidx_main_v27 (ix2 p q) k) * x8 (ridx_main_v27 (ix2 p q) k)
        = ∑ k : Fin 384, Y (ix2 p k) * x8 (ix2 k q) := fun Y =>
    Finset.sum_congr rfl fun k _ => by
      have el : lidx_main_v27 (ix2 p q) k = ix2 p k := funext fun a => by match a with | ⟨0, _⟩ => rfl | ⟨1, _⟩ => rfl
      have er : ridx_main_v27 (ix2 p q) k = ix2 k q := funext fun a => by match a with | ⟨0, _⟩ => rfl | ⟨1, _⟩ => rfl
      rw [el, er]
  rw [eb, hsum, e26, dot_cat3]
  rfl

/-! ## The node update -/

/-- The update: the encoded node row and the averaged messages, side by side, times the weight, plus the bias,
    clamped at zero. The averaged messages enter only as a matrix. -/
theorem update (x0 : (⟨S50000x16, .f32⟩ : BufTy).Contents (Elt Ideal)) (x1 : (⟨S500000x8, .f32⟩ : BufTy).Contents (Elt Ideal)) (x2 : (⟨S2x500000, .i32⟩ : BufTy).Contents (Elt Ideal)) (x4 : (⟨S16x128, .f32⟩ : BufTy).Contents (Elt Ideal)) (x5 : (⟨S128, .f32⟩ : BufTy).Contents (Elt Ideal)) (x6 : (⟨S8x128, .f32⟩ : BufTy).Contents (Elt Ideal)) (x7 : (⟨S128, .f32⟩ : BufTy).Contents (Elt Ideal)) (x8 : (⟨S384x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) :
    val_main_v49 (F := Ideal) x0 x1 x2 x4 x5 x6 x7 x8 x9 x10 x11
      = Cert.Spec.relu2 (val_main_v3 (F := Ideal) x0 x4 x5) (val_main_v43 (F := Ideal) x0 x1 x2 x4 x5 x6 x7 x8 x9)
          (Cert.Spec.band 0 (by norm_num) x10) (Cert.Spec.band 128 (by norm_num) x10) x11 := by
  funext j
  obtain ⟨p, q, rfl⟩ : ∃ (p : Fin 50000) (q : Fin 128), j = ix2 p q := ⟨j 0, j 1, eq_ix2 j⟩
  rw [Cert.Spec.relu2_apply, val_main_v49_apply, val_main_v48_apply, val_main_v45_apply, val_main_v47_apply,
    val_main_v46_apply, val_main_call1_v0_apply, val_main_call1_cst_apply]
  have eb : idx_main_v46 (idx_main_v47 (ix2 p q)) = ix1 q := funext fun a => by match a with | ⟨0, _⟩ => rfl
  have e44 : val_main_v44 (F := Ideal) x0 x1 x2 x4 x5 x6 x7 x8 x9 = cat2 (val_main_v3 (F := Ideal) x0 x4 x5) (val_main_v43 (F := Ideal) x0 x1 x2 x4 x5 x6 x7 x8 x9) := rfl
  have hsum : ∀ Y : S50000x256.Idx → EReal,
      ∑ k : Fin 256, Y (lidx_main_v45 (ix2 p q) k) * x10 (ridx_main_v45 (ix2 p q) k)
        = ∑ k : Fin 256, Y (ix2 p k) * x10 (ix2 k q) := fun Y =>
    Finset.sum_congr rfl fun k _ => by
      have el : lidx_main_v45 (ix2 p q) k = ix2 p k := funext fun a => by match a with | ⟨0, _⟩ => rfl | ⟨1, _⟩ => rfl
      have er : ridx_main_v45 (ix2 p q) k = ix2 k q := funext fun a => by match a with | ⟨0, _⟩ => rfl | ⟨1, _⟩ => rfl
      rw [el, er]
  rw [eb, hsum, e44, dot_cat2]
  rfl

end Cert.RefStages

end
-- ==== Proof.Values.lean ====
/-
  The idealized kernel's buffers, boundary by boundary, as the reference's own stages of the argument arrays.

  Region by region: the node encoder leaves the reference's node features; the edge encoder its edge features; the
  host stretch before the message region gathers rows of the node features at the edges' two endpoints (the same
  gather, at the same normalised indices, as the reference's) and cuts the message weights into their three bands of
  128 rows; the message region leaves the reference's messages, because a row of the concatenation against the whole
  weight matrix is the sum of the three pieces against the three bands; the next stretch is the reference's
  scatter-mean, operation for operation; the update region leaves the reference's updated features, by the same
  splitting of a concatenation into two bands; and the readout is the reference's, operation for operation.
-/
import proofs.«116420_j85873576116381_2_alg».proof.Proof.Gen.KernelIdeal.Frame
import proofs.«116420_j85873576116381_2_alg».proof.Proof.Gen.ReferenceIdeal.Read
import proofs.«116420_j85873576116381_2_alg».proof.Proof.Blocks0
import proofs.«116420_j85873576116381_2_alg».proof.Proof.Blocks1
import proofs.«116420_j85873576116381_2_alg».proof.Proof.Blocks2
import proofs.«116420_j85873576116381_2_alg».proof.Proof.Blocks3
import proofs.«116420_j85873576116381_2_alg».proof.Proof.RefStages
import Idealize.ShloMosaic.Lib.StableHlo.Run
import Idealize.ShloMosaic.Lib.ValueLayout

set_option maxRecDepth 16384

noncomputable section

namespace Cert.KernelIdeal.Values

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## Buffers nothing has written yet -/

/-- Nothing up to boundary 1 writes `main_arg1`. -/
theorem at1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := W1_of_ne m ρ c main_arg1 (by decide)
    _ = m ((c : Thread nD τ).loc main_arg1) := rfl

/-- Nothing up to boundary 1 writes `main_arg6`. -/
theorem at1_main_arg6 (c : Dev nD) : W1 m ρ c (Proc.devRef .tc main_arg6) = m ((c : Thread nD τ).loc main_arg6) :=
  calc W1 m ρ c (Proc.devRef .tc main_arg6)
    _ = W0 m ρ c (Proc.devRef .tc main_arg6) := W1_of_ne m ρ c main_arg6 (by decide)
    _ = m ((c : Thread nD τ).loc main_arg6) := rfl

/-- Nothing up to boundary 1 writes `main_arg7`. -/
theorem at1_main_arg7 (c : Dev nD) : W1 m ρ c (Proc.devRef .tc main_arg7) = m ((c : Thread nD τ).loc main_arg7) :=
  calc W1 m ρ c (Proc.devRef .tc main_arg7)
    _ = W0 m ρ c (Proc.devRef .tc main_arg7) := W1_of_ne m ρ c main_arg7 (by decide)
    _ = m ((c : Thread nD τ).loc main_arg7) := rfl

/-- Nothing up to boundary 2 writes `main_arg2`. -/
theorem at2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- Nothing up to boundary 2 writes `main_arg8`. -/
theorem at2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

/-- Nothing up to boundary 2 writes `main_arg9`. -/
theorem at2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl

/-- Nothing up to boundary 4 writes `main_arg10`. -/
theorem at4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := (by show StableHlo.after hostOps2 (W2 m ρ c) (Proc.devRef .tc main_arg10) = _; after_results_simp)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

/-- Nothing up to boundary 4 writes `main_arg11`. -/
theorem at4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := (by show StableHlo.after hostOps2 (W2 m ρ c) (Proc.devRef .tc main_arg11) = _; after_results_simp)
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

/-- Nothing up to boundary 6 writes `main_arg3`. -/
theorem at6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := (by show StableHlo.after hostOps3 (W4 m ρ c) (Proc.devRef .tc main_arg3) = _; after_results_simp)
    _ = W3 m ρ c (Proc.devRef .tc main_arg3) := W4_of_ne m ρ c main_arg3 (by decide)
    _ = W2 m ρ c (Proc.devRef .tc main_arg3) := (by show StableHlo.after hostOps2 (W2 m ρ c) (Proc.devRef .tc main_arg3) = _; after_results_simp)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- Nothing up to boundary 6 writes `main_arg12`. -/
theorem at6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := (by show StableHlo.after hostOps3 (W4 m ρ c) (Proc.devRef .tc main_arg12) = _; after_results_simp)
    _ = W3 m ρ c (Proc.devRef .tc main_arg12) := W4_of_ne m ρ c main_arg12 (by decide)
    _ = W2 m ρ c (Proc.devRef .tc main_arg12) := (by show StableHlo.after hostOps2 (W2 m ρ c) (Proc.devRef .tc main_arg12) = _; after_results_simp)
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

/-- Nothing up to boundary 6 writes `main_arg13`. -/
theorem at6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := (by show StableHlo.after hostOps3 (W4 m ρ c) (Proc.devRef .tc main_arg13) = _; after_results_simp)
    _ = W3 m ρ c (Proc.devRef .tc main_arg13) := W4_of_ne m ρ c main_arg13 (by decide)
    _ = W2 m ρ c (Proc.devRef .tc main_arg13) := (by show StableHlo.after hostOps2 (W2 m ρ c) (Proc.devRef .tc main_arg13) = _; after_results_simp)
    _ = W1 m ρ c (Proc.devRef .tc main_arg13) := W2_of_ne m ρ c main_arg13 (by decide)
    _ = W0 m ρ c (Proc.devRef .tc main_arg13) := W1_of_ne m ρ c main_arg13 (by decide)
    _ = m ((c : Thread nD τ).loc main_arg13) := rfl

/-- Nothing up to boundary 6 writes `main_arg14`. -/
theorem at6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := (by show StableHlo.after hostOps3 (W4 m ρ c) (Proc.devRef .tc main_arg14) = _; after_results_simp)
    _ = W3 m ρ c (Proc.devRef .tc main_arg14) := W4_of_ne m ρ c main_arg14 (by decide)
    _ = W2 m ρ c (Proc.devRef .tc main_arg14) := (by show StableHlo.after hostOps2 (W2 m ρ c) (Proc.devRef .tc main_arg14) = _; after_results_simp)
    _ = W1 m ρ c (Proc.devRef .tc main_arg14) := W2_of_ne m ρ c main_arg14 (by decide)
    _ = W0 m ρ c (Proc.devRef .tc main_arg14) := W1_of_ne m ρ c main_arg14 (by decide)
    _ = m ((c : Thread nD τ).loc main_arg14) := rfl

/-- Nothing up to boundary 6 writes `main_arg15`. -/
theorem at6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := (by show StableHlo.after hostOps3 (W4 m ρ c) (Proc.devRef .tc main_arg15) = _; after_results_simp)
    _ = W3 m ρ c (Proc.devRef .tc main_arg15) := W4_of_ne m ρ c main_arg15 (by decide)
    _ = W2 m ρ c (Proc.devRef .tc main_arg15) := (by show StableHlo.after hostOps2 (W2 m ρ c) (Proc.devRef .tc main_arg15) = _; after_results_simp)
    _ = W1 m ρ c (Proc.devRef .tc main_arg15) := W2_of_ne m ρ c main_arg15 (by decide)
    _ = W0 m ρ c (Proc.devRef .tc main_arg15) := W1_of_ne m ρ c main_arg15 (by decide)
    _ = m ((c : Thread nD τ).loc main_arg15) := rfl

/-! ## The two encoders -/

/-- After the first region the node-feature buffer holds the reference's node features. -/
theorem nodes1 (c : Dev nD) : W1 m ρ c (Proc.devRef .tc main_v0) = Cert.ReferenceIdeal.Read.val_main_v3 (F := Ideal) (m ((c : Thread nD τ).loc main_arg0)) (m ((c : Thread nD τ).loc main_arg4)) (m ((c : Thread nD τ).loc main_arg5)) := by
  rw [Cert.RefStages.enc_nodes]
  exact (W1_arr m ρ c 3).trans (Cert.KernelIdeal.Blocks0.final0 (V0 m ρ) c)

/-- The second region does not touch them. -/
theorem nodes2 (c : Dev nD) : W2 m ρ c (Proc.devRef .tc main_v0) = Cert.ReferenceIdeal.Read.val_main_v3 (F := Ideal) (m ((c : Thread nD τ).loc main_arg0)) (m ((c : Thread nD τ).loc main_arg4)) (m ((c : Thread nD τ).loc main_arg5)) :=
  (W2_of_ne m ρ c main_v0 (by decide)).trans (nodes1 m ρ c)

/-- After the second region the edge-feature buffer holds the reference's edge features. -/
theorem edges2 (c : Dev nD) : W2 m ρ c (Proc.devRef .tc main_v1) = Cert.ReferenceIdeal.Read.val_main_v7 (F := Ideal) (m ((c : Thread nD τ).loc main_arg1)) (m ((c : Thread nD τ).loc main_arg6)) (m ((c : Thread nD τ).loc main_arg7)) := by
  rw [Cert.RefStages.enc_edges]
  refine (W2_arr m ρ c 3).trans ((Cert.KernelIdeal.Blocks1.final1 (V1 m ρ) c).trans ?_)
  show Cert.Spec.lin (W1 m ρ c (Proc.devRef .tc main_arg1)) (W1 m ρ c (Proc.devRef .tc main_arg6)) (W1 m ρ c (Proc.devRef .tc main_arg7)) = _
  rw [at1_main_arg1, at1_main_arg6, at1_main_arg7]

/-! ## What the message region finds -/

theorem in3_v12 (c : Dev nD) : V3 m ρ c main_v12 = Cert.ReferenceIdeal.Read.val_main_v18 (F := Ideal) (m ((c : Thread nD τ).loc main_arg0)) (m ((c : Thread nD τ).loc main_arg2)) (m ((c : Thread nD τ).loc main_arg4)) (m ((c : Thread nD τ).loc main_arg5)) := by
  show StableHlo.after hostOps2 (W2 m ρ c) (Proc.devRef .tc main_v12) = _
  after_results_simp
  rw [nodes2, at2_main_arg2]
  rfl

theorem in3_v19 (c : Dev nD) : V3 m ρ c main_v19 = Cert.ReferenceIdeal.Read.val_main_v25 (F := Ideal) (m ((c : Thread nD τ).loc main_arg0)) (m ((c : Thread nD τ).loc main_arg2)) (m ((c : Thread nD τ).loc main_arg4)) (m ((c : Thread nD τ).loc main_arg5)) := by
  show StableHlo.after hostOps2 (W2 m ρ c) (Proc.devRef .tc main_v19) = _
  after_results_simp
  rw [nodes2, at2_main_arg2]
  rfl

theorem in3_v1 (c : Dev nD) : V3 m ρ c main_v1 = Cert.ReferenceIdeal.Read.val_main_v7 (F := Ideal) (m ((c : Thread nD τ).loc main_arg1)) (m ((c : Thread nD τ).loc main_arg6)) (m ((c : Thread nD τ).loc main_arg7)) := by
  show StableHlo.after hostOps2 (W2 m ρ c) (Proc.devRef .tc main_v1) = _
  after_results_simp
  exact edges2 m ρ c

/-- A band of 128 rows cut out of a weight matrix by a slice. -/
theorem band_of_slice {n : ℕ} (o : ℕ) (W : (⟨2, ![n, 128]⟩ : Shape).Idx → EReal)
    (h : (⟨2, ![n, 128]⟩ : Shape).Slices ![o, 0] ⟨2, ![128, 128]⟩) (hb : o + 128 ≤ n) :
    extractStridedSlice ⟨2, ![128, 128]⟩ ![o, 0] W h = Cert.Spec.band o hb W := by
  funext j
  obtain ⟨p, q, rfl⟩ : ∃ (p : Fin 128) (q : Fin 128), j = ix2 p q := ⟨j 0, j 1, eq_ix2 j⟩
  exact slice2_axis0_eq o W h p q

theorem in3_v20 (c : Dev nD) : V3 m ρ c main_v20 = Cert.Spec.band 0 (by norm_num) (m ((c : Thread nD τ).loc main_arg8)) := by
  show StableHlo.after hostOps2 (W2 m ρ c) (Proc.devRef .tc main_v20) = _
  after_results_simp
  rw [at2_main_arg8]
  exact band_of_slice 0 _ _ _

theorem in3_v21 (c : Dev nD) : V3 m ρ c main_v21 = Cert.Spec.band 128 (by norm_num) (m ((c : Thread nD τ).loc main_arg8)) := by
  show StableHlo.after hostOps2 (W2 m ρ c) (Proc.devRef .tc main_v21) = _
  after_results_simp
  rw [at2_main_arg8]
  exact band_of_slice 128 _ _ _

theorem in3_v22 (c : Dev nD) : V3 m ρ c main_v22 = Cert.Spec.band 256 (by norm_num) (m ((c : Thread nD τ).loc main_arg8)) := by
  show StableHlo.after hostOps2 (W2 m ρ c) (Proc.devRef .tc main_v22) = _
  after_results_simp
  rw [at2_main_arg8]
  exact band_of_slice 256 _ _ _

theorem in3_arg9 (c : Dev nD) : V3 m ρ c main_arg9 = (m ((c : Thread nD τ).loc main_arg9)) := by
  show StableHlo.after hostOps2 (W2 m ρ c) (Proc.devRef .tc main_arg9) = _
  after_results_simp
  exact at2_main_arg9 m ρ c

/-- After the message region the message buffer holds the reference's messages. -/
theorem messages4 (c : Dev nD) : W4 m ρ c (Proc.devRef .tc main_v23) = Cert.ReferenceIdeal.Read.val_main_v31 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Cert.RefStages.messages]
  refine (W4_arr m ρ c 7).trans ((Cert.KernelIdeal.Blocks2.final2 (V3 m ρ) c).trans ?_)
  rw [in3_v12, in3_v19, in3_v1, in3_v20, in3_v21, in3_v22, in3_arg9]

/-! ## What the update region finds -/

/-- The edges' targets, as the first host stretch left them. -/
theorem targets4 (c : Dev nD) : W4 m ρ c (Proc.devRef .tc main_v5) = Cert.ReferenceIdeal.Read.val_main_v11 (F := Ideal) (m ((c : Thread nD τ).loc main_arg2)) := by
  refine (W4_of_ne m ρ c main_v5 (by decide)).trans ?_
  show StableHlo.after hostOps2 (W2 m ρ c) (Proc.devRef .tc main_v5) = _
  after_results_simp
  rw [at2_main_arg2]
  rfl

theorem nodes4 (c : Dev nD) : W4 m ρ c (Proc.devRef .tc main_v0) = Cert.ReferenceIdeal.Read.val_main_v3 (F := Ideal) (m ((c : Thread nD τ).loc main_arg0)) (m ((c : Thread nD τ).loc main_arg4)) (m ((c : Thread nD τ).loc main_arg5)) := by
  refine (W4_of_ne m ρ c main_v0 (by decide)).trans ?_
  show StableHlo.after hostOps2 (W2 m ρ c) (Proc.devRef .tc main_v0) = _
  after_results_simp
  exact nodes2 m ρ c

theorem in5_v0 (c : Dev nD) : V5 m ρ c main_v0 = Cert.ReferenceIdeal.Read.val_main_v3 (F := Ideal) (m ((c : Thread nD τ).loc main_arg0)) (m ((c : Thread nD τ).loc main_arg4)) (m ((c : Thread nD τ).loc main_arg5)) := by
  show StableHlo.after hostOps3 (W4 m ρ c) (Proc.devRef .tc main_v0) = _
  after_results_simp
  exact nodes4 m ρ c

theorem in5_v35 (c : Dev nD) : V5 m ρ c main_v35 = Cert.ReferenceIdeal.Read.val_main_v43 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W4 m ρ c) (Proc.devRef .tc main_v35) = _
  after_results_simp
  rw [messages4, targets4]
  rfl

theorem in5_v36 (c : Dev nD) : V5 m ρ c main_v36 = Cert.Spec.band 0 (by norm_num) (m ((c : Thread nD τ).loc main_arg10)) := by
  show StableHlo.after hostOps3 (W4 m ρ c) (Proc.devRef .tc main_v36) = _
  after_results_simp
  rw [at4_main_arg10]
  exact band_of_slice 0 _ _ _

theorem in5_v37 (c : Dev nD) : V5 m ρ c main_v37 = Cert.Spec.band 128 (by norm_num) (m ((c : Thread nD τ).loc main_arg10)) := by
  show StableHlo.after hostOps3 (W4 m ρ c) (Proc.devRef .tc main_v37) = _
  after_results_simp
  rw [at4_main_arg10]
  exact band_of_slice 128 _ _ _

theorem in5_arg11 (c : Dev nD) : V5 m ρ c main_arg11 = (m ((c : Thread nD τ).loc main_arg11)) := by
  show StableHlo.after hostOps3 (W4 m ρ c) (Proc.devRef .tc main_arg11) = _
  after_results_simp
  exact at4_main_arg11 m ρ c

/-- After the update region the updated-feature buffer holds the reference's updated features. -/
theorem update6 (c : Dev nD) : W6 m ρ c (Proc.devRef .tc main_v38) = Cert.ReferenceIdeal.Read.val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Cert.RefStages.update]
  refine (W6_arr m ρ c 5).trans ((Cert.KernelIdeal.Blocks3.final3 (V5 m ρ) c).trans ?_)
  rw [in5_v0, in5_v35, in5_v36, in5_v37, in5_arg11]

/-! ## The readout -/

/-- THE RESULT: after the last host stretch the result buffer holds the reference's result of the argument arrays. -/
theorem result9 (c : Dev nD) : W9 m ρ c (Proc.devRef .tc main_v59) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps4_2 (StableHlo.after hostOps4_1 (StableHlo.after hostOps4 (W6 m ρ c))) (Proc.devRef .tc main_v59) = _
  after_results_simp
  rw [update6, at6_main_arg3, at6_main_arg12, at6_main_arg13, at6_main_arg14, at6_main_arg15]
  rfl

end Cert.KernelIdeal.Values

end
-- ==== Proof.lean ====
/-
  The claim: the message-passing network as a pipeline of four dense kernels among host gathers and scatters computes,
  on the extended reals, what its plain reference computes.

  The two programs differ only in how the dense stages are arranged. Where the reference concatenates the gathered
  endpoint features and the edge features into rows of length 384 and multiplies by the whole message weight matrix,
  the kernel multiplies the three pieces by the three bands of 128 rows of that matrix and adds the products; a row of
  a concatenation against a matrix is the sum of its pieces against the bands, by re-indexing one finite sum — the
  only algebra needed, and it holds for every extended real, so the finiteness of the inputs is never used. The node
  update is the same with two pieces. The encoders are the same affine map on both sides; the gathers, the two
  scatter-means and the readout are the same operations on both sides, applied to equal arrays.

  The kernel's run is read segment by segment (KernelRun, Values), each dense region as one function of the arrays it
  finds (Body, Blocks0 … Blocks3); the reference's stages at an index are RefStages; Spec states the shared formulas.
  The frames of the two kernel programs are the generated ones, the reference's frame is its generated run with the
  result dropped, and the idealization rewrote nothing, so it preserves the kernel trivially.
-/
import proofs.«116420_j85873576116381_2_alg».proof.Defs
import proofs.«116420_j85873576116381_2_alg».proof.Proof.Gen.Kernel
import proofs.«116420_j85873576116381_2_alg».proof.Proof.Gen.Kernel.Skeleton
import proofs.«116420_j85873576116381_2_alg».proof.Proof.Gen.Kernel.Launch
import proofs.«116420_j85873576116381_2_alg».proof.Proof.Gen.Kernel.Points
import proofs.«116420_j85873576116381_2_alg».proof.Proof.Gen.Kernel.Frame
import proofs.«116420_j85873576116381_2_alg».proof.Proof.Gen.KernelIdeal
import proofs.«116420_j85873576116381_2_alg».proof.Proof.Gen.KernelIdeal.Skeleton
import proofs.«116420_j85873576116381_2_alg».proof.Proof.Gen.KernelIdeal.Launch
import proofs.«116420_j85873576116381_2_alg».proof.Proof.Gen.KernelIdeal.Points
import proofs.«116420_j85873576116381_2_alg».proof.Proof.Gen.KernelIdeal.Frame
import proofs.«116420_j85873576116381_2_alg».proof.Proof.Gen.ReferenceIdeal
import proofs.«116420_j85873576116381_2_alg».proof.Proof.Gen.ReferenceIdeal.Run
import proofs.«116420_j85873576116381_2_alg».proof.Proof.Gen.ReferenceIdeal.Read
import proofs.«116420_j85873576116381_2_alg».proof.Proof.Gen.Pre_finite_inputs
import proofs.«116420_j85873576116381_2_alg».proof.Proof.KernelRun
import proofs.«116420_j85873576116381_2_alg».proof.Proof.Values
import Idealize.ShloMosaic.Adequacy
import Idealize.ShloMosaic.Init

set_option maxRecDepth 16384

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both runs end with the result buffer at the reference's last stage of the argument arrays: the kernel's by the
    segment-by-segment reading, the reference's by its own run, and the arguments agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Values.result9 m ρ c), (h c).2⟩)
      (Cert.KernelIdeal.Gen.run_result m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6, h7, h8, h9, h10, h11, h12, h13, h14, h15⟩ := hagree c
    rw [(h c).1, Cert.ReferenceIdeal.Read.val_main_v70_eq, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
